-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S8388608 : Shape := ⟨1, ![8388608]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel

variable [Facts]

def fn {F : FTy → Type} [FloatOps F] (main_arg0 : FVec F S8388608x3 .f32) (main_arg1 : IVec S8388608 32) (main_arg2 : IVec S8388608 32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  main_v3
-- ==== Kernel.lean ====
abbrev S8388608x3 : Shape := ⟨2, ![8388608, 3]⟩
abbrev S8388608 : Shape := ⟨1, ![8388608]⟩
abbrev S3x8388608 : Shape := ⟨2, ![3, 8388608]⟩
abbrev S4x8388608 : Shape := ⟨2, ![4, 8388608]⟩
abbrev S3x262144 : Shape := ⟨2, ![3, 262144]⟩
abbrev S4x262144 : Shape := ⟨2, ![4, 262144]⟩
abbrev S1x262144 : Shape := ⟨2, ![1, 262144]⟩
abbrev S262144 : Shape := ⟨1, ![262144]⟩
abbrev S1x8388608 : Shape := ⟨2, ![1, 8388608]⟩
abbrev S_ : Shape := ⟨0, ![]⟩
abbrev S8388608x1 : Shape := ⟨2, ![8388608, 1]⟩
abbrev S262144x1 : Shape := ⟨2, ![262144, 1]⟩
abbrev S262144x4 : Shape := ⟨2, ![262144, 4]⟩

abbrev nBuf : Space → Nat
  | .hbm => 54
  | .vmem => 4
  | .smem => 0
  | _ => 0

abbrev bufTy : (tb : Table) → Fin (tcTables nBuf tb) → BufTy
  | .hbm, ⟨0, _⟩ => ⟨S8388608x3, .f32⟩
  | .hbm, ⟨1, _⟩ => ⟨S8388608, .i32⟩
  | .hbm, ⟨2, _⟩ => ⟨S8388608, .i32⟩
  | .hbm, ⟨3, _⟩ => ⟨S3x8388608, .f32⟩
  | .hbm, ⟨4, _⟩ => ⟨S4x8388608, .f32⟩
  | .hbm, ⟨5, _⟩ => ⟨S1x8388608, .f32⟩
  | .hbm, ⟨6, _⟩ => ⟨S8388608, .f32⟩
  | .hbm, ⟨7, _⟩ => ⟨S1x8388608, .f32⟩
  | .hbm, ⟨8, _⟩ => ⟨S8388608, .f32⟩
  | .hbm, ⟨9, _⟩ => ⟨S1x8388608, .f32⟩
  | .hbm, ⟨10, _⟩ => ⟨S8388608, .f32⟩
  | .hbm, ⟨11, _⟩ => ⟨S1x8388608, .f32⟩
  | .hbm, ⟨12, _⟩ => ⟨S8388608, .f32⟩
  | .hbm, ⟨13, _⟩ => ⟨S_, .f32⟩
  | .hbm, ⟨14, _⟩ => ⟨S262144, .f32⟩
  | .hbm, ⟨15, _⟩ => ⟨S8388608x1, .i32⟩
  | .hbm, ⟨16, _⟩ => ⟨S262144, .f32⟩
  | .hbm, ⟨17, _⟩ => ⟨S_, .f32⟩
  | .hbm, ⟨18, _⟩ => ⟨S262144, .f32⟩
  | .hbm, ⟨19, _⟩ => ⟨S8388608x1, .i32⟩
  | .hbm, ⟨20, _⟩ => ⟨S262144, .f32⟩
  | .hbm, ⟨21, _⟩ => ⟨S262144, .f32⟩
  | .hbm, ⟨22, _⟩ => ⟨S_, .f32⟩
  | .hbm, ⟨23, _⟩ => ⟨S262144, .f32⟩
  | .hbm, ⟨24, _⟩ => ⟨S8388608x1, .i32⟩
  | .hbm, ⟨25, _⟩ => ⟨S262144, .f32⟩
  | .hbm, ⟨26, _⟩ => ⟨S_, .f32⟩
  | .hbm, ⟨27, _⟩ => ⟨S262144, .f32⟩
  | .hbm, ⟨28, _⟩ => ⟨S8388608x1, .i32⟩
  | .hbm, ⟨29, _⟩ => ⟨S262144, .f32⟩
  | .hbm, ⟨30, _⟩ => ⟨S262144, .f32⟩
  | .hbm, ⟨31, _⟩ => ⟨S_, .f32⟩
  | .hbm, ⟨32, _⟩ => ⟨S262144, .f32⟩
  | .hbm, ⟨33, _⟩ => ⟨S8388608x1, .i32⟩
  | .hbm, ⟨34, _⟩ => ⟨S262144, .f32⟩
  | .hbm, ⟨35, _⟩ => ⟨S_, .f32⟩
  | .hbm, ⟨36, _⟩ => ⟨S262144, .f32⟩
  | .hbm, ⟨37, _⟩ => ⟨S8388608x1, .i32⟩
  | .hbm, ⟨38, _⟩ => ⟨S262144, .f32⟩
  | .hbm, ⟨39, _⟩ => ⟨S262144, .f32⟩
  | .hbm, ⟨40, _⟩ => ⟨S_, .f32⟩
  | .hbm, ⟨41, _⟩ => ⟨S262144, .f32⟩
  | .hbm, ⟨42, _⟩ => ⟨S8388608x1, .i32⟩
  | .hbm, ⟨43, _⟩ => ⟨S262144, .f32⟩
  | .hbm, ⟨44, _⟩ => ⟨S_, .f32⟩
  | .hbm, ⟨45, _⟩ => ⟨S262144, .f32⟩
  | .hbm, ⟨46, _⟩ => ⟨S8388608x1, .i32⟩
  | .hbm, ⟨47, _⟩ => ⟨S262144, .f32⟩
  | .hbm, ⟨48, _⟩ => ⟨S262144, .f32⟩
  | .hbm, ⟨49, _⟩ => ⟨S262144x1, .f32⟩
  | .hbm, ⟨50, _⟩ => ⟨S262144x1, .f32⟩
  | .hbm, ⟨51, _⟩ => ⟨S262144x1, .f32⟩
  | .hbm, ⟨52, _⟩ => ⟨S262144x1, .f32⟩
  | .hbm, ⟨53, _⟩ => ⟨S262144x4, .f32⟩
  | .local _ .vmem, ⟨0, _⟩ => ⟨S3x262144, .f32⟩
  | .local _ .vmem, ⟨1, _⟩ => ⟨S3x262144, .f32⟩
  | .local _ .vmem, ⟨2, _⟩ => ⟨S4x262144, .f32⟩
  | .local _ .vmem, ⟨3, _⟩ => ⟨S4x262144, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x262144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S8388608x3_S3x8388608_1_0 : S8388608x3.Transposes [1, 0] S3x8388608
  inb_S3x262144_S1x262144_0_0 : ∀ a, (![0, 0] : Fin 2 → Nat) a + S1x262144.size a ≤ S3x262144.size a
  h_S1x262144 : 0 < S1x262144.numel
  shapeCasts_S1x262144_S262144 : S1x262144.ShapeCasts S262144
  inb_S3x262144_S1x262144_1_0 : ∀ a, (![1, 0] : Fin 2 → Nat) a + S1x262144.size a ≤ S3x262144.size a
  inb_S3x262144_S1x262144_2_0 : ∀ a, (![2, 0] : Fin 2 → Nat) a + S1x262144.size a ≤ S3x262144.size a
  inb_S4x262144_S1x262144_0_0 : ∀ a, (![0, 0] : Fin 2 → Nat) a + S1x262144.size a ≤ S4x262144.size a
  shapeCasts_S262144_S1x262144 : S262144.ShapeCasts S1x262144
  inb_S4x262144_S1x262144_1_0 : ∀ a, (![1, 0] : Fin 2 → Nat) a + S1x262144.size a ≤ S4x262144.size a
  inb_S4x262144_S1x262144_2_0 : ∀ a, (![2, 0] : Fin 2 → Nat) a + S1x262144.size a ≤ S4x262144.size a
  inb_S4x262144_S1x262144_3_0 : ∀ a, (![3, 0] : Fin 2 → Nat) a + S1x262144.size a ≤ S4x262144.size a
  slices_S4x8388608_S1x8388608_0_0 : S4x8388608.Slices ![0, 0] S1x8388608
  shapeCasts_S1x8388608_S8388608 : S1x8388608.ShapeCasts S8388608
  slices_S4x8388608_S1x8388608_1_0 : S4x8388608.Slices ![1, 0] S1x8388608
  slices_S4x8388608_S1x8388608_2_0 : S4x8388608.Slices ![2, 0] S1x8388608
  slices_S4x8388608_S1x8388608_3_0 : S4x8388608.Slices ![3, 0] S1x8388608
  bcast_S_S262144 : S_.BroadcastsInDim S262144 (![] : Fin 0 → Fin S262144.rank)
  bcast_S8388608_S8388608x1_0 : S8388608.BroadcastsInDim S8388608x1 (![0] : Fin 1 → Fin S8388608x1.rank)
  bcast_S262144_S262144x1_0 : S262144.BroadcastsInDim S262144x1 (![0] : Fin 1 → Fin S262144x1.rank)
  concatenates_S262144x1_S262144x1_S262144x1_S262144x1_S262144x4_d1 : Shape.Concatenates [S262144x1, S262144x1, S262144x1, S262144x1] S262144x4 1
  scatter_S262144_S8388608x1_S8388608_n_0_0_1_wf : ScatterDims.WF S262144 S8388608x1 S8388608 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x262144.size a ≤ S3x8388608.size a
  hwx0_0 : ∀ i : grid0.Coords, EltTy.bits .f32 = 32 ∨ (Rect.block (s := S3x8388608) S3x262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x262144.size a ≤ S4x8388608.size a
  hwx0_1 : ∀ i : grid0.Coords, EltTy.bits .f32 = 32 ∨ (Rect.block (s := S4x8388608) S4x262144.size (cc0_transform_1 i) (hinb0_1 i)).WholeWords (EltTy.packing .f32)

variable [Facts₀]

def scatter_S262144_S8388608x1_S8388608_n_0_0_1 : ScatterDims S262144 S8388608x1 S8388608 where
  updateWindowDims := []
  insertedWindowDims := [0]
  scatterDimsToOperandDims := [0]
  indexVectorDim := 1
  wf := scatter_S262144_S8388608x1_S8388608_n_0_0_1_wf

abbrev win0_0 : Pipeline.Window sig grid0 :=
  Pipeline.Window.ofSpec (Memref.whole main_v0) S3x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x262144.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S8388608 : Shape := ⟨1, ![8388608]⟩
abbrev S_ : Shape := ⟨0, ![]⟩
abbrev S262144 : Shape := ⟨1, ![262144]⟩
abbrev S8388608x1 : Shape := ⟨2, ![8388608, 1]⟩
abbrev S262144x3 : Shape := ⟨2, ![262144, 3]⟩
abbrev S262144x1 : Shape := ⟨2, ![262144, 1]⟩
abbrev S262144x4 : Shape := ⟨2, ![262144, 4]⟩

abbrev nBuf : Space → Nat
  | .hbm => 57
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608, .i32⟩
  | .hbm, ⟨2, _⟩ => ⟨S8388608, .i32⟩
  | .hbm, ⟨3, _⟩ => ⟨S8388608x3, .f32⟩
  | .hbm, ⟨4, _⟩ => ⟨S_, .f32⟩
  | .hbm, ⟨5, _⟩ => ⟨S8388608, .f32⟩
  | .hbm, ⟨6, _⟩ => ⟨S_, .f32⟩
  | .hbm, ⟨7, _⟩ => ⟨S8388608, .f32⟩
  | .hbm, ⟨8, _⟩ => ⟨S8388608, .f32⟩
  | .hbm, ⟨9, _⟩ => ⟨S8388608, .f32⟩
  | .hbm, ⟨10, _⟩ => ⟨S8388608, .f32⟩
  | .hbm, ⟨11, _⟩ => ⟨S8388608, .f32⟩
  | .hbm, ⟨12, _⟩ => ⟨S8388608, .f32⟩
  | .hbm, ⟨13, _⟩ => ⟨S_, .f32⟩
  | .hbm, ⟨14, _⟩ => ⟨S8388608, .f32⟩
  | .hbm, ⟨15, _⟩ => ⟨S8388608, .f32⟩
  | .hbm, ⟨16, _⟩ => ⟨S_, .f32⟩
  | .hbm, ⟨17, _⟩ => ⟨S8388608, .f32⟩
  | .hbm, ⟨18, _⟩ => ⟨S8388608, .f32⟩
  | .hbm, ⟨19, _⟩ => ⟨S_, .f32⟩
  | .hbm, ⟨20, _⟩ => ⟨S8388608, .f32⟩
  | .hbm, ⟨21, _⟩ => ⟨S8388608, .f32⟩
  | .hbm, ⟨22, _⟩ => ⟨S_, .f32⟩
  | .hbm, ⟨23, _⟩ => ⟨S262144, .f32⟩
  | .hbm, ⟨24, _⟩ => ⟨S8388608x1, .i32⟩
  | .hbm, ⟨25, _⟩ => ⟨S262144, .f32⟩
  | .hbm, ⟨26, _⟩ => ⟨S_, .f32⟩
  | .hbm, ⟨27, _⟩ => ⟨S8388608, .f32⟩
  | .hbm, ⟨28, _⟩ => ⟨S8388608, .f32⟩
  | .hbm, ⟨29, _⟩ => ⟨S_, .f32⟩
  | .hbm, ⟨30, _⟩ => ⟨S262144, .f32⟩
  | .hbm, ⟨31, _⟩ => ⟨S8388608x1, .i32⟩
  | .hbm, ⟨32, _⟩ => ⟨S262144, .f32⟩
  | .hbm, ⟨33, _⟩ => ⟨S262144, .f32⟩
  | .hbm, ⟨34, _⟩ => ⟨S_, .f32⟩
  | .hbm, ⟨35, _⟩ => ⟨S8388608, .f32⟩
  | .hbm, ⟨36, _⟩ => ⟨S8388608, .f32⟩
  | .hbm, ⟨37, _⟩ => ⟨S8388608, .f32⟩
  | .hbm, ⟨38, _⟩ => ⟨S_, .f32⟩
  | .hbm, ⟨39, _⟩ => ⟨S8388608, .f32⟩
  | .hbm, ⟨40, _⟩ => ⟨S8388608, .f32⟩
  | .hbm, ⟨41, _⟩ => ⟨S8388608, .f32⟩
  | .hbm, ⟨42, _⟩ => ⟨S8388608x1, .f32⟩
  | .hbm, ⟨43, _⟩ => ⟨S8388608x3, .f32⟩
  | .hbm, ⟨44, _⟩ => ⟨S8388608x3, .f32⟩
  | .hbm, ⟨45, _⟩ => ⟨S_, .f32⟩
  | .hbm, ⟨46, _⟩ => ⟨S262144x3, .f32⟩
  | .hbm, ⟨47, _⟩ => ⟨S8388608x1, .i32⟩
  | .hbm, ⟨48, _⟩ => ⟨S262144x3, .f32⟩
  | .hbm, ⟨49, _⟩ => ⟨S8388608x3, .f32⟩
  | .hbm, ⟨50, _⟩ => ⟨S_, .f32⟩
  | .hbm, ⟨51, _⟩ => ⟨S262144x3, .f32⟩
  | .hbm, ⟨52, _⟩ => ⟨S8388608x1, .i32⟩
  | .hbm, ⟨53, _⟩ => ⟨S262144x3, .f32⟩
  | .hbm, ⟨54, _⟩ => ⟨S262144x3, .f32⟩
  | .hbm, ⟨55, _⟩ => ⟨S262144x1, .f32⟩
  | .hbm, ⟨56, _⟩ => ⟨S262144x4, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  reducesTo_S8388608x3_S8388608_d1 : S8388608x3.ReducesTo [1] S8388608
  h_S_ : 0 < S_.numel
  bcast_S_S8388608 : S_.BroadcastsInDim S8388608 (![] : Fin 0 → Fin S8388608.rank)
  bcast_S_S262144 : S_.BroadcastsInDim S262144 (![] : Fin 0 → Fin S262144.rank)
  bcast_S8388608_S8388608x1_0 : S8388608.BroadcastsInDim S8388608x1 (![0] : Fin 1 → Fin S8388608x1.rank)
  bcast_S8388608x1_S8388608x3_0_1 : S8388608x1.BroadcastsInDim S8388608x3 (![0, 1] : Fin 2 → Fin S8388608x3.rank)
  bcast_S_S262144x3 : S_.BroadcastsInDim S262144x3 (![] : Fin 0 → Fin S262144x3.rank)
  bcast_S262144_S262144x1_0 : S262144.BroadcastsInDim S262144x1 (![0] : Fin 1 → Fin S262144x1.rank)
  concatenates_S262144x1_S262144x3_S262144x4_d1 : Shape.Concatenates [S262144x1, S262144x3] S262144x4 1
  scatter_S262144_S8388608x1_S8388608_n_0_0_1_wf : ScatterDims.WF S262144 S8388608x1 S8388608 [] [0] [0] 1
  scatter_S262144x3_S8388608x1_S8388608x3_1_0_0_1_wf : ScatterDims.WF S262144x3 S8388608x1 S8388608x3 [1] [0] [0] 1

variable [Facts₀]

def scatter_S262144_S8388608x1_S8388608_n_0_0_1 : ScatterDims S262144 S8388608x1 S8388608 where
  updateWindowDims := []
  insertedWindowDims := [0]
  scatterDimsToOperandDims := [0]
  indexVectorDim := 1
  wf := scatter_S262144_S8388608x1_S8388608_n_0_0_1_wf
def scatter_S262144x3_S8388608x1_S8388608x3_1_0_0_1 : ScatterDims S262144x3 S8388608x1 S8388608x3 where
  updateWindowDims := [1]
  insertedWindowDims := [0]
  scatterDimsToOperandDims := [0]
  indexVectorDim := 1
  wf := scatter_S262144x3_S8388608x1_S8388608x3_1_0_0_1_wf

class Facts : Prop extends Facts₀ where

variable [Facts]
-- ==== Proof.FrameK.lean ====
/-
  The frame of `Kernel`: the program is one host line (the transpose of the pair displacements, so that the pair axis is the
  long one), one pipelined region over 32 grid points, and 49 host lines after it (four row slices of the region's result,
  eight accumulating scatters by the two atom-index arrays, their sums and differences, and the final concatenation of the
  four per-atom columns).

  The region's body at a point reads the three rows (x, y, z components) of its block of the transposed displacements and
  stores four rows into its block of the result: half the pair energy, and the three force components. Each of the four
  stores writes one whole row of the 4-row staging buffer, so together they tile it: the buffer after the body is a function
  of the three loaded rows alone (`rowsOut`), whatever it held before (the body also loads each output row before storing
  it, and ignores what it loaded).

  From that: the proof data of the pipeline (inputs found at their blocks, the output buffer at `rowsOut` of them), the body
  obligation, the run of @main around the region, and the frame statement — the three argument arrays are touched by no
  host line's write and are no array the pipeline writes back, so they end as launched. The statement is proved at every
  float instance `F`.
-/
import proofs.«162897_j89361089560859_2_alg».proof.Proof.Gen.Kernel.Launch
import proofs.«162897_j89361089560859_2_alg».proof.Proof.Gen.Kernel.Skeleton
import proofs.«162897_j89361089560859_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the one host line before the region
    (the transpose). -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host line before the region, the region, and the 49 host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes the transposed displacements or the region's result: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The transpose writes its own result only: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The transpose writes its own result only: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The transpose writes its own result only: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the pipeline's post -/

/-- The three argument arrays are among the buffers the pipeline does not stage; the post gives each what the lines after
    the region leave there, which is what was launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's accesses: one row at a time -/

abbrev rowIn0 : Rect S3x262144 := Rect.unit (s := S3x262144) ![0, 0] S1x262144.size inb_S3x262144_S1x262144_0_0
abbrev rowIn1 : Rect S3x262144 := Rect.unit (s := S3x262144) ![1, 0] S1x262144.size inb_S3x262144_S1x262144_1_0
abbrev rowIn2 : Rect S3x262144 := Rect.unit (s := S3x262144) ![2, 0] S1x262144.size inb_S3x262144_S1x262144_2_0
abbrev rowOut0 : Rect S4x262144 := Rect.unit (s := S4x262144) ![0, 0] S1x262144.size inb_S4x262144_S1x262144_0_0
abbrev rowOut1 : Rect S4x262144 := Rect.unit (s := S4x262144) ![1, 0] S1x262144.size inb_S4x262144_S1x262144_1_0
abbrev rowOut2 : Rect S4x262144 := Rect.unit (s := S4x262144) ![2, 0] S1x262144.size inb_S4x262144_S1x262144_2_0
abbrev rowOut3 : Rect S4x262144 := Rect.unit (s := S4x262144) ![3, 0] S1x262144.size inb_S4x262144_S1x262144_3_0

/-! ## What the body leaves in the output window's buffer -/

/-- The output staging buffer after the body, from the input block `x`: its four row stores, last first. Row 0 is half the
    pair energy, rows 1 to 3 the force coefficient times the x, y, z components. -/
def rowsOut (x : Vec F S3x262144 .f32) : Vec F S4x262144 .f32 :=
  View.canon [⟨rowOut3, k0_pay2 (k0_pay5 (View.ld x rowIn2)) (k0_pay9 (View.ld x rowIn0) (View.ld x rowIn1) (View.ld x rowIn2))⟩,
    ⟨rowOut2, k0_pay1 (k0_pay12 (View.ld x rowIn0) (View.ld x rowIn1) (View.ld x rowIn2))⟩,
    ⟨rowOut1, k0_pay11 (View.ld x rowIn0) (View.ld x rowIn1) (View.ld x rowIn2)⟩,
    ⟨rowOut0, k0_pay10 (View.ld x rowIn0) (View.ld x rowIn1) (View.ld x rowIn2)⟩]

/-- The four rows tile the 4-row buffer, so the stores cover it. -/
theorem rows_cover (p0 p1 p2 p3 : Vec F S1x262144 .f32) (y : S4x262144.Idx) :
    ∃ pc ∈ ([⟨rowOut3, p0⟩, ⟨rowOut2, p1⟩, ⟨rowOut1, p2⟩, ⟨rowOut0, p3⟩] : List (View.Piece (Elt F) S4x262144 .f32)), y ∈ pc.1.set :=
  View.cover_of_tiled [⟨rowOut3, p0⟩, ⟨rowOut2, p1⟩, ⟨rowOut1, p2⟩, ⟨rowOut0, p3⟩] S1x262144.size (by rfl) y

/-! ## The body's triple -/

set_option maxHeartbeats 1000000 in
/-- The body on whole staging memrefs, the input's at contents `x` and the output's at anything, runs to a state with the
    input's as it was and the output's at `rowsOut x`. -/
theorem sound_kernel (c : Dev nD) (E : Set ℕ) (i : grid0.Coords) (arg1 : Memref sig .tc .vmem S3x262144 .f32) (harg1 : arg1.IsWhole) (arg2 : Memref sig .tc .vmem S4x262144 .f32) (harg2 : arg2.IsWhole)
    (x : Vec F S3x262144 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (rowsOut x)) -∗ K ⟨⟩))
      ⊢ wp frame (wpE (defs₀ (F := F)) Variants.none c none) E (cc0__lj_kernel i arg1 harg1 arg2 harg2) K := by
  simp only [cc0__lj_kernel_eq_skeleton]; unfold cc0__lj_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (rows_cover _ _ _ _)

/-! ## The pipeline's proof data -/

/-- The arrays as the region finds them; after the body at point `t` the input's buffer at its block and the output's at
    `rowsOut` of it; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => rowsOut (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = rowsOut (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, the pipeline's two arrays at what the proof data compute and every
    other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Frm

end
-- ==== Proof.FrameKI.lean ====
/-
  The frame of `KernelIdeal`: the program is one host line (the transpose of the pair displacements, so that the pair axis is the
  long one), one pipelined region over 32 grid points, and 49 host lines after it (four row slices of the region's result,
  eight accumulating scatters by the two atom-index arrays, their sums and differences, and the final concatenation of the
  four per-atom columns).

  The region's body at a point reads the three rows (x, y, z components) of its block of the transposed displacements and
  stores four rows into its block of the result: half the pair energy, and the three force components. Each of the four
  stores writes one whole row of the 4-row staging buffer, so together they tile it: the buffer after the body is a function
  of the three loaded rows alone (`rowsOut`), whatever it held before (the body also loads each output row before storing
  it, and ignores what it loaded).

  From that: the proof data of the pipeline (inputs found at their blocks, the output buffer at `rowsOut` of them), the body
  obligation, the run of @main around the region, and the frame statement — the three argument arrays are touched by no
  host line's write and are no array the pipeline writes back, so they end as launched. The statement is proved at every
  float instance `F`.
-/
import proofs.«162897_j89361089560859_2_alg».proof.Proof.Gen.KernelIdeal.Launch
import proofs.«162897_j89361089560859_2_alg».proof.Proof.Gen.KernelIdeal.Skeleton
import proofs.«162897_j89361089560859_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the one host line before the region
    (the transpose). -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host line before the region, the region, and the 49 host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes the transposed displacements or the region's result: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The transpose writes its own result only: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The transpose writes its own result only: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The transpose writes its own result only: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the pipeline's post -/

/-- The three argument arrays are among the buffers the pipeline does not stage; the post gives each what the lines after
    the region leave there, which is what was launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's accesses: one row at a time -/

abbrev rowIn0 : Rect S3x262144 := Rect.unit (s := S3x262144) ![0, 0] S1x262144.size inb_S3x262144_S1x262144_0_0
abbrev rowIn1 : Rect S3x262144 := Rect.unit (s := S3x262144) ![1, 0] S1x262144.size inb_S3x262144_S1x262144_1_0
abbrev rowIn2 : Rect S3x262144 := Rect.unit (s := S3x262144) ![2, 0] S1x262144.size inb_S3x262144_S1x262144_2_0
abbrev rowOut0 : Rect S4x262144 := Rect.unit (s := S4x262144) ![0, 0] S1x262144.size inb_S4x262144_S1x262144_0_0
abbrev rowOut1 : Rect S4x262144 := Rect.unit (s := S4x262144) ![1, 0] S1x262144.size inb_S4x262144_S1x262144_1_0
abbrev rowOut2 : Rect S4x262144 := Rect.unit (s := S4x262144) ![2, 0] S1x262144.size inb_S4x262144_S1x262144_2_0
abbrev rowOut3 : Rect S4x262144 := Rect.unit (s := S4x262144) ![3, 0] S1x262144.size inb_S4x262144_S1x262144_3_0

/-! ## What the body leaves in the output window's buffer -/

/-- The output staging buffer after the body, from the input block `x`: its four row stores, last first. Row 0 is half the
    pair energy, rows 1 to 3 the force coefficient times the x, y, z components. -/
def rowsOut (x : Vec F S3x262144 .f32) : Vec F S4x262144 .f32 :=
  View.canon [⟨rowOut3, k0_pay2 (k0_pay5 (View.ld x rowIn2)) (k0_pay9 (View.ld x rowIn0) (View.ld x rowIn1) (View.ld x rowIn2))⟩,
    ⟨rowOut2, k0_pay1 (k0_pay12 (View.ld x rowIn0) (View.ld x rowIn1) (View.ld x rowIn2))⟩,
    ⟨rowOut1, k0_pay11 (View.ld x rowIn0) (View.ld x rowIn1) (View.ld x rowIn2)⟩,
    ⟨rowOut0, k0_pay10 (View.ld x rowIn0) (View.ld x rowIn1) (View.ld x rowIn2)⟩]

/-- The four rows tile the 4-row buffer, so the stores cover it. -/
theorem rows_cover (p0 p1 p2 p3 : Vec F S1x262144 .f32) (y : S4x262144.Idx) :
    ∃ pc ∈ ([⟨rowOut3, p0⟩, ⟨rowOut2, p1⟩, ⟨rowOut1, p2⟩, ⟨rowOut0, p3⟩] : List (View.Piece (Elt F) S4x262144 .f32)), y ∈ pc.1.set :=
  View.cover_of_tiled [⟨rowOut3, p0⟩, ⟨rowOut2, p1⟩, ⟨rowOut1, p2⟩, ⟨rowOut0, p3⟩] S1x262144.size (by rfl) y

/-! ## The body's triple -/

set_option maxHeartbeats 1000000 in
/-- The body on whole staging memrefs, the input's at contents `x` and the output's at anything, runs to a state with the
    input's as it was and the output's at `rowsOut x`. -/
theorem sound_kernel (c : Dev nD) (E : Set ℕ) (i : grid0.Coords) (arg1 : Memref sig .tc .vmem S3x262144 .f32) (harg1 : arg1.IsWhole) (arg2 : Memref sig .tc .vmem S4x262144 .f32) (harg2 : arg2.IsWhole)
    (x : Vec F S3x262144 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (rowsOut x)) -∗ K ⟨⟩))
      ⊢ wp frame (wpE (defs₀ (F := F)) Variants.none c none) E (cc0__lj_kernel i arg1 harg1 arg2 harg2) K := by
  simp only [cc0__lj_kernel_eq_skeleton]; unfold cc0__lj_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (rows_cover _ _ _ _)

/-! ## The pipeline's proof data -/

/-- The arrays as the region finds them; after the body at point `t` the input's buffer at its block and the output's at
    `rowsOut` of it; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => rowsOut (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = rowsOut (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, the pipeline's two arrays at what the proof data compute and every
    other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Frm

end
-- ==== Proof.PairMath.lean ====
import Idealize.ShloMosaic.PureOps.Ideal

/-!
Extended-real algebra of a pair interaction of Lennard-Jones type.

For a displacement `(x, y, z)` put `b = x*x + y*y + z*z`, `t = 1/b`, `t6 = (t*t)*t`.
The half-energy is `0.5 * (4 * (t6*t6 - t6) - shift)` and the force along a component `w`
is `((12 * (t6 - 2 * (t6*t6))) / b) * w`. All operations are the exact operations of the
extended reals `[-∞, +∞]`, with the quotient `Ideal.div` (`x / 0 = ±∞` by the sign of `x`,
`0 / 0 = ⊥`, otherwise `x * y⁻¹`).

Two facts are proved. First, multiplying the numerator by the reciprocal `1/b` gives the same
extended real as dividing it by `b`, for every extended real `b` (including `b = 0`, where both
sides are `⊥`). Second, for real `x, y, z` every force component is a real number.
-/

noncomputable section

open scoped BigOperators

namespace Cert.PairMath

open Idealize.ShloMosaic

/-- The pattern of `1.0`. -/
abbrev c1 : EReal := Ideal.ofBits .f32 0x3F800000#32
/-- The pattern of `2.0`. -/
abbrev c2 : EReal := Ideal.ofBits .f32 0x40000000#32
/-- The pattern of `4.0`. -/
abbrev c4 : EReal := Ideal.ofBits .f32 0x40800000#32
/-- The pattern of `12.0`. -/
abbrev c12 : EReal := Ideal.ofBits .f32 0x41400000#32
/-- The pattern of `0.5`. -/
abbrev chalf : EReal := Ideal.ofBits .f32 0x3F000000#32
/-- The pattern of the (negative) energy shift at the cutoff. -/
abbrev cshift : EReal := Ideal.ofBits .f32 0xB986358A#32

/-- `t ↦ (t * t) * t`. -/
def cube (t : EReal) : EReal := (t * t) * t

/-- The half-energy as a function of `t = 1 / b`. -/
def halfE (t : EReal) : EReal := chalf * (c4 * (cube t * cube t - cube t) - cshift)

/-- The numerator of the force coefficient as a function of `t = 1 / b`. -/
def coeffNum (t : EReal) : EReal := c12 * (cube t - c2 * (cube t * cube t))

/-- The squared length of a displacement, associated to the left. -/
def sq (x y z : EReal) : EReal := (x * x + y * y) + z * z

/-- The force along the component `w` of the displacement `(x, y, z)`. -/
def force (x y z w : EReal) : EReal :=
  Ideal.div (coeffNum (Ideal.div c1 (sq x y z))) (sq x y z) * w

/-- The pattern `0x3F800000` denotes `1`. -/
theorem c1_eq : c1 = 1 := by
  simp [c1, Ideal.ofBits, Ideal.ieee, -EReal.coe_mul]; norm_num

/-- The pattern `0x40000000` denotes `2`. -/
theorem c2_eq : c2 = ((2 : ℝ) : EReal) := by
  simp [c2, Ideal.ofBits, Ideal.ieee, -EReal.coe_mul]; norm_num

/-- The pattern `0x41400000` denotes `12`. -/
theorem c12_eq : c12 = ((12 : ℝ) : EReal) := by
  simp [c12, Ideal.ofBits, Ideal.ieee, -EReal.coe_mul]; norm_num

/-- Multiplying the argument by `1` does not change the half-energy. -/
theorem halfE_one_mul (t : EReal) : halfE (c1 * t) = halfE t := by
  rw [c1_eq, one_mul]

/-- `(t * t) * t` at `⊤` is `⊤`. -/
private theorem cube_top : cube ⊤ = ⊤ := by
  simp [cube, EReal.top_mul_top]

/-- At `t = ⊤` the numerator is `12 * (⊤ - 2 * ⊤) = 12 * (⊤ - ⊤) = 12 * ⊥ = ⊥`. -/
private theorem coeffNum_top : coeffNum ⊤ = ⊥ := by
  have h2 : (0 : EReal) < ((2 : ℝ) : EReal) := by exact_mod_cast (by norm_num : (0 : ℝ) < 2)
  have h12 : (0 : EReal) < ((12 : ℝ) : EReal) := by exact_mod_cast (by norm_num : (0 : ℝ) < 12)
  unfold coeffNum
  rw [cube_top, c2_eq, c12_eq, EReal.top_mul_top, EReal.mul_top_of_pos h2, EReal.sub_top,
    EReal.mul_bot_of_pos h12]

/-- The numerator times the reciprocal is the numerator divided, for every extended real `b`.
    For `b = 0`: `1 / 0 = ⊤`, the numerator at `⊤` is `⊥`, and `⊥ * ⊤ = ⊥ = ⊥ / 0`.
    For `b ≠ 0`: `1 / b = b⁻¹` and `A / b = A * b⁻¹`. -/
theorem coeff_kernel_eq (b : EReal) :
    coeffNum (c1 * Ideal.div c1 b) * Ideal.div c1 b = Ideal.div (coeffNum (Ideal.div c1 b)) b := by
  rw [c1_eq, one_mul]
  by_cases hb : b = 0
  · subst hb
    have h1 : Ideal.div 1 0 = ⊤ := by simp [Ideal.div]
    rw [h1, coeffNum_top]
    simp [Ideal.div, EReal.bot_mul_top]
  · have h1 : Ideal.div 1 b = b⁻¹ := by simp [Ideal.div, hb]
    rw [h1]
    simp [Ideal.div, hb]

/-- The sum over the three components, started from the pattern of `+0.0`, is the squared length. -/
theorem sum3_eq (d : Fin 3 → EReal) :
    Ideal.ofBits .f32 0x00000000#32 + ∑ k : Fin 3, d k * d k = sq (d 0) (d 1) (d 2) := by
  have h0 : Ideal.ofBits .f32 0x00000000#32 = 0 := by simp [Ideal.ofBits, Ideal.ieee]
  rw [h0, zero_add, Fin.sum_univ_three, sq]

/-- An extended real that is (the coercion of) a real number. -/
private def IsReal (a : EReal) : Prop := ∃ r : ℝ, a = (r : EReal)

private theorem IsReal.coe (r : ℝ) : IsReal (r : EReal) := ⟨r, rfl⟩

private theorem IsReal.mul {a b : EReal} (ha : IsReal a) (hb : IsReal b) : IsReal (a * b) := by
  obtain ⟨r, rfl⟩ := ha
  obtain ⟨s, rfl⟩ := hb
  exact ⟨r * s, (EReal.coe_mul r s).symm⟩

private theorem IsReal.add {a b : EReal} (ha : IsReal a) (hb : IsReal b) : IsReal (a + b) := by
  obtain ⟨r, rfl⟩ := ha
  obtain ⟨s, rfl⟩ := hb
  exact ⟨r + s, (EReal.coe_add r s).symm⟩

private theorem IsReal.sub {a b : EReal} (ha : IsReal a) (hb : IsReal b) : IsReal (a - b) := by
  obtain ⟨r, rfl⟩ := ha
  obtain ⟨s, rfl⟩ := hb
  exact ⟨r - s, (EReal.coe_sub r s).symm⟩

private theorem IsReal.inv {a : EReal} (ha : IsReal a) : IsReal a⁻¹ := by
  obtain ⟨r, rfl⟩ := ha
  exact ⟨r⁻¹, (EReal.coe_inv r).symm⟩

private theorem isReal_c2 : IsReal c2 := ⟨2, c2_eq⟩

private theorem isReal_c12 : IsReal c12 := ⟨12, c12_eq⟩

private theorem IsReal.cube {t : EReal} (ht : IsReal t) : IsReal (cube t) :=
  (ht.mul ht).mul ht

private theorem IsReal.coeffNum {t : EReal} (ht : IsReal t) : IsReal (coeffNum t) :=
  isReal_c12.mul (ht.cube.sub (isReal_c2.mul (ht.cube.mul ht.cube)))

/-- Off zero the quotient of reals is real. -/
private theorem IsReal.div {a b : EReal} (ha : IsReal a) (hb : IsReal b) (h0 : b ≠ 0) :
    IsReal (Ideal.div a b) := by
  have h : Ideal.div a b = a * b⁻¹ := by simp [Ideal.div, h0]
  rw [h]
  exact ha.mul hb.inv

/-- For a real displacement the force along a real component is real: if the squared length is
    `0` the displacement is `0`, so the component is `0` and the product is `0`; otherwise every
    intermediate value is a real number. -/
private theorem force_isReal (x y z w : ℝ) (hw : x * x + y * y + z * z = 0 → w = 0) :
    IsReal (force (x : EReal) (y : EReal) (z : EReal) (w : EReal)) := by
  have hsq : sq (x : EReal) (y : EReal) (z : EReal) = ((x * x + y * y + z * z : ℝ) : EReal) := by
    simp [sq, EReal.coe_add, EReal.coe_mul]
  unfold force
  rw [hsq]
  by_cases hβ : x * x + y * y + z * z = 0
  · rw [hw hβ]
    exact ⟨0, by simp⟩
  · have h0 : ((x * x + y * y + z * z : ℝ) : EReal) ≠ 0 := by
      intro h
      exact hβ (by exact_mod_cast h)
    have h1 : IsReal c1 := ⟨1, by rw [c1_eq]; rfl⟩
    exact (IsReal.div (IsReal.coeffNum (IsReal.div h1 (IsReal.coe _) h0)) (IsReal.coe _) h0).mul
      (IsReal.coe w)

/-- For a real displacement every force component is a real number. -/
theorem force_real (x y z : ℝ) :
    (∃ r : ℝ, force (x : EReal) (y : EReal) (z : EReal) (x : EReal) = (r : EReal)) ∧
    (∃ r : ℝ, force (x : EReal) (y : EReal) (z : EReal) (y : EReal) = (r : EReal)) ∧
    (∃ r : ℝ, force (x : EReal) (y : EReal) (z : EReal) (z : EReal) = (r : EReal)) := by
  refine ⟨force_isReal x y z x ?_, force_isReal x y z y ?_, force_isReal x y z z ?_⟩
  · intro h
    nlinarith [mul_self_nonneg x, mul_self_nonneg y, mul_self_nonneg z]
  · intro h
    nlinarith [mul_self_nonneg x, mul_self_nonneg y, mul_self_nonneg z]
  · intro h
    nlinarith [mul_self_nonneg x, mul_self_nonneg y, mul_self_nonneg z]

end Cert.PairMath

end
-- ==== Proof.ValueKI.lean ====
/-
  The value of the pipelined region: what its result array holds after the run, as one function of the displacements.

  At a grid point the body reads its block of the transposed displacements (3 rows: x, y, z; 262144 pair columns) and stores a
  block of 4 rows: for each pair column, half the pair energy and the force coefficient times x, y and z. Read at an index,
  every vector operation of the body is the scalar operation on that pair's three components (`pay*_apply`), so the block the
  body leaves is one function of the input block (`rowsOut_eq`). Block `t` covers the pair columns `262144 t … 262144 t +
  262143`, both for the input and the output, and the input array is the transpose of the displacement argument, so what
  point `t` writes back is block `t` of one whole-array function `Gout` of the displacements (`flushed_eq`); the 32 blocks
  tile the result array (`cover`), which therefore ends holding `Gout` (`final_out`).
-/
import proofs.«162897_j89361089560859_2_alg».proof.Proof.FrameKI
import proofs.«162897_j89361089560859_2_alg».proof.Proof.PairMath
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Cert.KernelIdeal.Frm Cert.PairMath
open Idealize.ShloMosaic Idealize.ShloMosaic.TcCoe Idealize.SL.Sem Idealize.ShloMosaic.ValueIdx
open Idealize.ShloMosaic.Pipeline (Dat)

/-- A row vector cast to a flat vector reads the row's element. -/
theorem pay3_apply (v : Vec Ideal S1x262144 .f32) (q : Fin 262144) : k0_pay3 v (ix1 q) = v (ix2 (0 : Fin 1) q) := by
  unfold k0_pay3; exact shapeCast_1a_a_apply _ _ q
theorem pay4_apply (v : Vec Ideal S1x262144 .f32) (q : Fin 262144) : k0_pay4 v (ix1 q) = v (ix2 (0 : Fin 1) q) := by
  unfold k0_pay4; exact shapeCast_1a_a_apply _ _ q
theorem pay5_apply (v : Vec Ideal S1x262144 .f32) (q : Fin 262144) : k0_pay5 v (ix1 q) = v (ix2 (0 : Fin 1) q) := by
  unfold k0_pay5; exact shapeCast_1a_a_apply _ _ q

/-- The kernel's force coefficient for a displacement. -/
def kCoeff (x y z : EReal) : EReal := coeffNum (c1 * Ideal.div c1 (sq x y z)) * Ideal.div c1 (sq x y z)
/-- The kernel's half-energy for a displacement. -/
def kHalfE (x y z : EReal) : EReal := halfE (c1 * Ideal.div c1 (sq x y z))

theorem pay9_apply (v0 v2 v4 : Vec Ideal S1x262144 .f32) (q : Fin 262144) :
    k0_pay9 v0 v2 v4 (ix1 q) = kCoeff (v0 (ix2 (0 : Fin 1) q)) (v2 (ix2 (0 : Fin 1) q)) (v4 (ix2 (0 : Fin 1) q)) := by
  show kCoeff (k0_pay3 v0 (ix1 q)) (k0_pay4 v2 (ix1 q)) (k0_pay5 v4 (ix1 q)) = _
  rw [pay3_apply, pay4_apply, pay5_apply]

theorem pay10_apply (v0 v2 v4 : Vec Ideal S1x262144 .f32) (u : Fin 1) (q : Fin 262144) :
    k0_pay10 v0 v2 v4 (ix2 u q) = kHalfE (v0 (ix2 (0 : Fin 1) q)) (v2 (ix2 (0 : Fin 1) q)) (v4 (ix2 (0 : Fin 1) q)) := by
  unfold k0_pay10
  refine (shapeCast_a_1a_apply _ _ u q).trans ?_
  show kHalfE (k0_pay3 v0 (ix1 q)) (k0_pay4 v2 (ix1 q)) (k0_pay5 v4 (ix1 q)) = _
  rw [pay3_apply, pay4_apply, pay5_apply]

theorem pay11_apply (v0 v2 v4 : Vec Ideal S1x262144 .f32) (u : Fin 1) (q : Fin 262144) :
    k0_pay11 v0 v2 v4 (ix2 u q) = kCoeff (v0 (ix2 (0 : Fin 1) q)) (v2 (ix2 (0 : Fin 1) q)) (v4 (ix2 (0 : Fin 1) q)) * v0 (ix2 (0 : Fin 1) q) := by
  unfold k0_pay11
  refine (shapeCast_a_1a_apply _ _ u q).trans ?_
  show k0_pay9 v0 v2 v4 (ix1 q) * k0_pay3 v0 (ix1 q) = _
  rw [pay9_apply, pay3_apply]

theorem pay1_12_apply (v0 v2 v4 : Vec Ideal S1x262144 .f32) (u : Fin 1) (q : Fin 262144) :
    k0_pay1 (k0_pay12 v0 v2 v4) (ix2 u q) = kCoeff (v0 (ix2 (0 : Fin 1) q)) (v2 (ix2 (0 : Fin 1) q)) (v4 (ix2 (0 : Fin 1) q)) * v2 (ix2 (0 : Fin 1) q) := by
  unfold k0_pay1
  refine (shapeCast_a_1a_apply _ _ u q).trans ?_
  show k0_pay9 v0 v2 v4 (ix1 q) * k0_pay4 v2 (ix1 q) = _
  rw [pay9_apply, pay4_apply]

theorem pay2_apply (v0 v2 v4 : Vec Ideal S1x262144 .f32) (u : Fin 1) (q : Fin 262144) :
    k0_pay2 (k0_pay5 v4) (k0_pay9 v0 v2 v4) (ix2 u q) = kCoeff (v0 (ix2 (0 : Fin 1) q)) (v2 (ix2 (0 : Fin 1) q)) (v4 (ix2 (0 : Fin 1) q)) * v4 (ix2 (0 : Fin 1) q) := by
  unfold k0_pay2
  refine (shapeCast_a_1a_apply _ _ u q).trans ?_
  show k0_pay9 v0 v2 v4 (ix1 q) * k0_pay5 v4 (ix1 q) = _
  rw [pay9_apply, pay5_apply]

/-! ## The block the body leaves, as one function of the input block -/

/-- Row `r` of the result for a displacement: half the pair energy, then the three force components. -/
def rowVal (r : Nat) (x y z : EReal) : EReal :=
  match r with
  | 0 => kHalfE x y z
  | 1 => kCoeff x y z * x
  | 2 => kCoeff x y z * y
  | _ => kCoeff x y z * z

/-- The output block as a function of the input block `x`: at (row, pair) the row's value of the pair's three components. -/
def blockG (x : Vec Ideal S3x262144 .f32) : Vec Ideal S4x262144 .f32 := fun j =>
  rowVal (j 0).val (x (ix2 (0 : Fin 3) (⟨(j 1).val, (j 1).isLt⟩ : Fin 262144))) (x (ix2 (1 : Fin 3) (⟨(j 1).val, (j 1).isLt⟩ : Fin 262144)))
    (x (ix2 (2 : Fin 3) (⟨(j 1).val, (j 1).isLt⟩ : Fin 262144)))

theorem ld_row0 (x : Vec Ideal S3x262144 .f32) (q : Fin 262144) : View.ld x rowIn0 (ix2 (0 : Fin 1) q) = x (ix2 (0 : Fin 3) q) := by
  refine congrArg x (funext fun a => Fin.ext ?_)
  match a with
  | ⟨0, _⟩ => rfl
  | ⟨1, _⟩ => show 0 + 1 * q.val = q.val; omega
theorem ld_row1 (x : Vec Ideal S3x262144 .f32) (q : Fin 262144) : View.ld x rowIn1 (ix2 (0 : Fin 1) q) = x (ix2 (1 : Fin 3) q) := by
  refine congrArg x (funext fun a => Fin.ext ?_)
  match a with
  | ⟨0, _⟩ => rfl
  | ⟨1, _⟩ => show 0 + 1 * q.val = q.val; omega
theorem ld_row2 (x : Vec Ideal S3x262144 .f32) (q : Fin 262144) : View.ld x rowIn2 (ix2 (0 : Fin 1) q) = x (ix2 (2 : Fin 3) q) := by
  refine congrArg x (funext fun a => Fin.ext ?_)
  match a with
  | ⟨0, _⟩ => rfl
  | ⟨1, _⟩ => show 0 + 1 * q.val = q.val; omega

/-- `blockG` at an index given by its coordinates. -/
theorem blockG_at (x : Vec Ideal S3x262144 .f32) (j : S4x262144.Idx) (r : Nat) (q : Fin 262144)
    (h0 : (j 0).val = r) (h1 : (j 1).val = q.val) :
    blockG x j = rowVal r (x (ix2 (0 : Fin 3) q)) (x (ix2 (1 : Fin 3) q)) (x (ix2 (2 : Fin 3) q)) := by
  unfold blockG
  have e : (⟨(j 1).val, (j 1).isLt⟩ : Fin 262144) = q := Fin.ext h1
  rw [e, h0]

/-- The four row stores leave `blockG` of the input block. -/
theorem rowsOut_eq (x : Vec Ideal S3x262144 .f32) : rowsOut x = blockG x := by
  funext y
  unfold rowsOut
  refine View.canon_apply_of_pieces (blockG x) _ ?_ y (rows_cover _ _ _ _ y)
  intro p hp
  simp only [List.mem_cons, List.mem_nil_iff, or_false] at hp
  rcases hp with rfl | rfl | rfl | rfl
  · intro y'
    obtain ⟨u, q, rfl⟩ : ∃ (u : Fin 1) (q : Fin 262144), y' = ix2 u q := ⟨y' 0, y' 1, eq_ix2 y'⟩
    have hu : u.val = 0 := by omega
    rw [blockG_at x (rowOut3.emb (ix2 u q)) 3 q (by show 3 + 1 * u.val = 3; omega) (by show 0 + 1 * q.val = q.val; omega)]
    show k0_pay2 (k0_pay5 (View.ld x rowIn2)) (k0_pay9 (View.ld x rowIn0) (View.ld x rowIn1) (View.ld x rowIn2)) (ix2 u q) = _
    rw [pay2_apply, ld_row0, ld_row1, ld_row2]
    rfl
  · intro y'
    obtain ⟨u, q, rfl⟩ : ∃ (u : Fin 1) (q : Fin 262144), y' = ix2 u q := ⟨y' 0, y' 1, eq_ix2 y'⟩
    have hu : u.val = 0 := by omega
    rw [blockG_at x (rowOut2.emb (ix2 u q)) 2 q (by show 2 + 1 * u.val = 2; omega) (by show 0 + 1 * q.val = q.val; omega)]
    show k0_pay1 (k0_pay12 (View.ld x rowIn0) (View.ld x rowIn1) (View.ld x rowIn2)) (ix2 u q) = _
    rw [pay1_12_apply, ld_row0, ld_row1, ld_row2]
    rfl
  · intro y'
    obtain ⟨u, q, rfl⟩ : ∃ (u : Fin 1) (q : Fin 262144), y' = ix2 u q := ⟨y' 0, y' 1, eq_ix2 y'⟩
    have hu : u.val = 0 := by omega
    rw [blockG_at x (rowOut1.emb (ix2 u q)) 1 q (by show 1 + 1 * u.val = 1; omega) (by show 0 + 1 * q.val = q.val; omega)]
    show k0_pay11 (View.ld x rowIn0) (View.ld x rowIn1) (View.ld x rowIn2) (ix2 u q) = _
    rw [pay11_apply, ld_row0, ld_row1, ld_row2]
    rfl
  · intro y'
    obtain ⟨u, q, rfl⟩ : ∃ (u : Fin 1) (q : Fin 262144), y' = ix2 u q := ⟨y' 0, y' 1, eq_ix2 y'⟩
    have hu : u.val = 0 := by omega
    rw [blockG_at x (rowOut0.emb (ix2 u q)) 0 q (by show 0 + 1 * u.val = 0; omega) (by show 0 + 1 * q.val = q.val; omega)]
    show k0_pay10 (View.ld x rowIn0) (View.ld x rowIn1) (View.ld x rowIn2) (ix2 u q) = _
    rw [pay10_apply, ld_row0, ld_row1, ld_row2]
    rfl

/-! ## The region's result array, as one function of the displacements -/

variable (m : (ℓ : Loc nD τ sig) → Buf (Elt Ideal) ℓ) (ρ : Dev nD → PrngReg)

/-- The region finds the transposed displacements in its input array. -/
theorem V_main_v0 (c : Dev nD) : (V m c main_v0 : S3x8388608.Idx → EReal)
    = transpose S3x8388608 [1, 0] (m ((c : Thread nD τ).loc main_arg0)) transposes_S8388608x3_S3x8388608_1_0 := by
  show StableHlo.after hostOps0 (fun b => m (c, b)) (Proc.devRef .tc main_v0) = _
  after_results

/-- Both windows' block index at grid point `t` is `(0, t)`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- Element `(K, q)` of the input block at point `t` is component `K` of pair `262144 t + q`. -/
theorem iblk_apply (c : Dev nD) (t : Fin cfg0.N) (K : Fin 3) (q : Fin 262144) (p : Fin 8388608) (hp : p.val = t.val * 262144 + q.val) :
    (iblk m c 0 t : Vec Ideal S3x262144 .f32) (ix2 K q) = (m ((c : Thread nD τ).loc main_arg0) : S8388608x3.Idx → EReal) (ix2 p K) := by
  obtain ⟨e0, e1, -, -⟩ := idx_facts t
  unfold iblk
  rw [View.read_apply]
  show V m c main_v0 _ = _
  rw [V_main_v0]
  refine transpose_apply _ _ _ _ (ix2 p K) fun b => ?_
  match b with
  | ⟨0, _⟩ => show K.val = win0_0.index t (0 : Fin 2) * 3 + 1 * K.val; rw [e0]; omega
  | ⟨1, _⟩ => show p.val = win0_0.index t (1 : Fin 2) * 262144 + 1 * q.val; rw [e1, hp]; omega

/-- The region's result: at (row, pair) the row's value of the pair's displacement. -/
def Gout (d : S8388608x3.Idx → EReal) : S4x8388608.Idx → EReal := fun i =>
  rowVal (i 0).val (d (ix2 (⟨(i 1).val, (i 1).isLt⟩ : Fin 8388608) (0 : Fin 3))) (d (ix2 (⟨(i 1).val, (i 1).isLt⟩ : Fin 8388608) (1 : Fin 3)))
    (d (ix2 (⟨(i 1).val, (i 1).isLt⟩ : Fin 8388608) (2 : Fin 3)))

theorem Gout_at (d : S8388608x3.Idx → EReal) (i : S4x8388608.Idx) (r : Nat) (p : Fin 8388608)
    (h0 : (i 0).val = r) (h1 : (i 1).val = p.val) :
    Gout d i = rowVal r (d (ix2 p (0 : Fin 3))) (d (ix2 p (1 : Fin 3))) (d (ix2 p (2 : Fin 3))) := by
  unfold Gout
  have e : (⟨(i 1).val, (i 1).isLt⟩ : Fin 8388608) = p := Fin.ext h1
  rw [e, h0]

/-- What point `t` writes back is block `t` of `Gout` of the displacements. -/
theorem flushed_eq (c : Dev nD) (t : Fin cfg0.N) :
    (dats m 0 c).flushed 1 t = ((cfg0.win 1).blk t).view.read (Elt Ideal) (Gout (m ((c : Thread nD τ).loc main_arg0))) := by
  show (cfg0.win 1).cut (grid0.coords t) ((dats m 0 c).after 1 t) = _
  rw [after0_1, rowsOut_eq]
  obtain ⟨e0, e1, e2, e3⟩ := idx_facts t
  have hN : cfg0.N = 32 := N_0
  have ht : t.val < 32 := by have := t.isLt; omega
  funext j
  obtain ⟨r, q, rfl⟩ : ∃ (r : Fin 4) (q : Fin 262144), j = ix2 r q := ⟨j 0, j 1, eq_ix2 j⟩
  have hq : q.val < 262144 := q.isLt
  show blockG (iblk m c 0 t) (ix2 r q) = Gout (m ((c : Thread nD τ).loc main_arg0)) (((cfg0.win 1).blk t).view.emb (ix2 r q))
  rw [blockG_at _ (ix2 r q) r.val q rfl rfl,
    Gout_at _ (((cfg0.win 1).blk t).view.emb (ix2 r q)) r.val ⟨t.val * 262144 + q.val, by omega⟩
      (by show win0_1.index t (0 : Fin 2) * 4 + 1 * r.val = r.val; rw [e2]; omega)
      (by show win0_1.index t (1 : Fin 2) * 262144 + 1 * q.val = t.val * 262144 + q.val; rw [e3]; omega),
    iblk_apply m c t 0 q ⟨t.val * 262144 + q.val, by omega⟩ rfl,
    iblk_apply m c t 1 q ⟨t.val * 262144 + q.val, by omega⟩ rfl,
    iblk_apply m c t 2 q ⟨t.val * 262144 + q.val, by omega⟩ rfl]

/-- An index of the result array is in point `t`'s block iff each coordinate is in the block's range. -/
theorem mem_blk (t : Fin cfg0.N) (i : S4x8388608.Idx) :
    i ∈ ((cfg0.win 1).blk t).view.set ↔ ∀ a : Fin 2, win0_1.index t a * S4x262144.size a ≤ (i a).val ∧ (i a).val < win0_1.index t a * S4x262144.size a + S4x262144.size a := by
  show i ∈ ((View.whole main_v1).slice (win0_1.rect t)).set ↔ _
  rw [View.set_slice_whole, Rect.mem_set_unit]
  exact Iff.rfl

/-- Every pair column lies in the block of the point `pair / 262144`. -/
theorem cover (i : S4x8388608.Idx) : ∃ t : Fin cfg0.N, (cfg0.win 1).flush t = true ∧ i ∈ ((cfg0.win 1).blk t).view.set := by
  have hN : cfg0.N = 32 := N_0
  have h0 : (i 0).val < 4 := (i 0).isLt
  have h1 : (i 1).val < 8388608 := (i 1).isLt
  have hlt : (i 1).val / 262144 < cfg0.N := by rw [hN]; omega
  refine ⟨⟨(i 1).val / 262144, hlt⟩, flush0_1 _, ?_⟩
  rw [mem_blk]
  obtain ⟨-, -, e2, e3⟩ := idx_facts ⟨(i 1).val / 262144, hlt⟩
  intro a
  match a with
  | ⟨0, _⟩ =>
    show win0_1.index ⟨(i 1).val / 262144, hlt⟩ (0 : Fin 2) * 4 ≤ (i 0).val ∧ (i 0).val < win0_1.index ⟨(i 1).val / 262144, hlt⟩ (0 : Fin 2) * 4 + 4
    rw [e2]; omega
  | ⟨1, _⟩ =>
    show win0_1.index ⟨(i 1).val / 262144, hlt⟩ (1 : Fin 2) * 262144 ≤ (i 1).val ∧ (i 1).val < win0_1.index ⟨(i 1).val / 262144, hlt⟩ (1 : Fin 2) * 262144 + 262144
    rw [e3]
    show (i 1).val / 262144 * 262144 ≤ (i 1).val ∧ (i 1).val < (i 1).val / 262144 * 262144 + 262144
    omega

/-- The region's result array after the run. -/
theorem final_out (c : Dev nD) : (dats m 0 c).arrAt 1 cfg0.N = Gout (m ((c : Thread nD τ).loc main_arg0)) :=
  (dats m 0 c).arrAt_eq_of_cover 1 (Gout (m ((c : Thread nD τ).loc main_arg0))) (fun t _ => flushed_eq m c t) cover

end Cert.KernelIdeal.Val
end
-- ==== Proof.Scatter.lean ====
/-
  An accumulating scatter by atom index, read at one atom.

  The programs sum per-pair values into per-atom totals with `stablehlo.scatter` whose body is an addition: for a 1-d update
  `u[p]` and an index array `idx[p, 0]`, result element `n` is the operand's element `n` plus the sum of `u[p]` over the pairs
  `p` whose index word, read signed, is `n` (a pair whose word is out of range lands nowhere). For a 2-d update `u[p, k]`
  with the component axis `k` a window axis, result element `(n, k)` is the operand's plus the sum of `u[p, k]` over the same
  pairs: the 2-d scatter is the 1-d scatter, column by column.

  `segSum idx g n` names that sum. Two facts about it are used: it does not care how the update was laid out (the two
  `scatter*_apply` lemmas), and the sum of the negated values is the negated sum when every value is a real number (on the
  extended reals a sum that meets both infinities does not negate term by term).
-/
import Idealize.ShloMosaic.PureOps.Ideal
import Idealize.ShloMosaic.Lib.ValueIdx
import Idealize.ShloMosaic.Lib.Pipeline.Value
noncomputable section
open scoped BigOperators
namespace Cert.Scatter
open Idealize.ShloMosaic Idealize.ShloMosaic.ValueIdx

abbrev SP : Shape := ⟨1, ![8388608]⟩
abbrev SP1 : Shape := ⟨2, ![8388608, 1]⟩
abbrev SP3 : Shape := ⟨2, ![8388608, 3]⟩
abbrev SN : Shape := ⟨1, ![262144]⟩
abbrev SN3 : Shape := ⟨2, ![262144, 3]⟩

def d1 : ScatterDims SN SP1 SP := ⟨[], [0], [0], 1, by decide⟩
def d3 : ScatterDims SN3 SP1 SP3 := ⟨[1], [0], [0], 1, by decide⟩

theorem start1 (idx : IVec SP1 32) (p : Fin 8388608) : d1.start (ix1 p) idx 0 = (idx (ix2 p (0 : Fin 1))).toInt := by
  unfold ScatterDims.start
  rw [dif_pos (by decide)]
  refine congrArg (fun j => (idx j).toInt) ?_
  funext b
  match b with
  | ⟨0, _⟩ => rfl
  | ⟨1, _⟩ => rfl

theorem window1 (p : Fin 8388608) : d1.window (ix1 p) 0 = 0 := by
  unfold ScatterDims.window
  rw [dif_neg (by decide)]

theorem start3_0 (idx : IVec SP1 32) (p : Fin 8388608) (k : Fin 3) : d3.start (ix2 p k) idx 0 = (idx (ix2 p (0 : Fin 1))).toInt := by
  unfold ScatterDims.start
  rw [dif_pos (by decide)]
  refine congrArg (fun j => (idx j).toInt) ?_
  funext b
  match b with
  | ⟨0, _⟩ => rfl
  | ⟨1, _⟩ => rfl

theorem start3_1 (idx : IVec SP1 32) (p : Fin 8388608) (k : Fin 3) : d3.start (ix2 p k) idx 1 = 0 := by
  unfold ScatterDims.start
  rw [dif_neg (by decide)]

theorem window3_0 (p : Fin 8388608) (k : Fin 3) : d3.window (ix2 p k) 0 = 0 := by
  unfold ScatterDims.window
  rw [dif_neg (by decide)]

theorem window3_1 (p : Fin 8388608) (k : Fin 3) : d3.window (ix2 p k) 1 = k.val := by
  unfold ScatterDims.window
  rw [dif_pos (by decide)]
  rfl

theorem result1 (idx : IVec SP1 32) (p : Fin 8388608) (n : Fin 262144) :
    d1.resultIdx? (ix1 p) idx = some (ix1 n) ↔ (idx (ix2 p (0 : Fin 1))).toInt = (n.val : Int) := by
  have hn : n.val < 262144 := n.isLt
  unfold ScatterDims.resultIdx?
  split
  · rename_i h
    rw [Option.some.injEq]
    constructor
    · intro e
      have hv : (d1.start (ix1 p) idx 0 + (d1.window (ix1 p) 0 : Int)).toNat = n.val := congrArg Fin.val (congrFun e 0)
      have h0 := (h 0).1
      rw [start1, window1] at hv h0
      omega
    · intro e
      funext a
      match a with
      | ⟨0, _⟩ =>
        apply Fin.ext
        show (d1.start (ix1 p) idx 0 + (d1.window (ix1 p) 0 : Int)).toNat = n.val
        rw [start1, window1, e]; omega
  · rename_i h
    constructor
    · intro e; cases e
    · intro e; exfalso; apply h; intro a
      match a with
      | ⟨0, _⟩ =>
        show 0 ≤ d1.start (ix1 p) idx 0 + (d1.window (ix1 p) 0 : Int) ∧ d1.start (ix1 p) idx 0 + (d1.window (ix1 p) 0 : Int) < (262144 : Nat)
        rw [start1, window1, e]; omega

theorem result3 (idx : IVec SP1 32) (p : Fin 8388608) (k' : Fin 3) (n : Fin 262144) (k : Fin 3) :
    d3.resultIdx? (ix2 p k') idx = some (ix2 n k) ↔ ((idx (ix2 p (0 : Fin 1))).toInt = (n.val : Int) ∧ k' = k) := by
  have hn : n.val < 262144 := n.isLt
  have hk : k.val < 3 := k.isLt
  have hk' : k'.val < 3 := k'.isLt
  unfold ScatterDims.resultIdx?
  split
  · rename_i h
    rw [Option.some.injEq]
    constructor
    · intro e
      have hv0 : (d3.start (ix2 p k') idx 0 + (d3.window (ix2 p k') 0 : Int)).toNat = n.val := congrArg Fin.val (congrFun e 0)
      have hv1 : (d3.start (ix2 p k') idx 1 + (d3.window (ix2 p k') 1 : Int)).toNat = k.val := congrArg Fin.val (congrFun e 1)
      have h0 := (h 0).1
      rw [start3_0, window3_0] at hv0 h0
      rw [start3_1, window3_1] at hv1
      exact ⟨by omega, Fin.ext (by omega)⟩
    · rintro ⟨e, rfl⟩
      funext a
      match a with
      | ⟨0, _⟩ =>
        apply Fin.ext
        show (d3.start (ix2 p k') idx 0 + (d3.window (ix2 p k') 0 : Int)).toNat = n.val
        rw [start3_0, window3_0, e]; omega
      | ⟨1, _⟩ =>
        apply Fin.ext
        show (d3.start (ix2 p k') idx 1 + (d3.window (ix2 p k') 1 : Int)).toNat = k'.val
        rw [start3_1, window3_1]; omega
  · rename_i h
    constructor
    · intro e; cases e
    · rintro ⟨e, rfl⟩; exfalso; apply h; intro a
      match a with
      | ⟨0, _⟩ =>
        show 0 ≤ d3.start (ix2 p k') idx 0 + (d3.window (ix2 p k') 0 : Int) ∧ d3.start (ix2 p k') idx 0 + (d3.window (ix2 p k') 0 : Int) < (262144 : Nat)
        rw [start3_0, window3_0, e]; omega
      | ⟨1, _⟩ =>
        show 0 ≤ d3.start (ix2 p k') idx 1 + (d3.window (ix2 p k') 1 : Int) ∧ d3.start (ix2 p k') idx 1 + (d3.window (ix2 p k') 1 : Int) < (3 : Nat)
        rw [start3_1, window3_1]; omega

/-! ## The sum over the pairs of one atom -/

/-- The sum of `g p` over the pairs `p` whose index word, read signed, is atom `n`. -/
def segSum (idx : IVec SP1 32) (g : Fin 8388608 → EReal) (n : Fin 262144) : EReal :=
  ∑ p ∈ Finset.univ.filter (fun p : Fin 8388608 => (idx (ix2 p (0 : Fin 1))).toInt = (n.val : Int)), g p

/-- The 1-d accumulating scatter at atom `n`. -/
theorem scatter1_apply (x : SN.Idx → EReal) (idx : IVec SP1 32) (u : SP.Idx → EReal) (n : Fin 262144) :
    Ideal.hostScatterAdd d1 x idx u (ix1 n) = x (ix1 n) + segSum idx (fun p => u (ix1 p)) n := by
  unfold Ideal.hostScatterAdd segSum
  refine congrArg (x (ix1 n) + ·) ?_
  symm
  refine Finset.sum_bij (fun p _ => ix1 p) ?_ ?_ ?_ ?_
  · intro p hp
    rw [Finset.mem_filter] at hp ⊢
    exact ⟨Finset.mem_univ _, (result1 idx p n).2 hp.2⟩
  · intro p _ q _ e
    exact congrFun e 0
  · intro j hj
    obtain ⟨p, rfl⟩ : ∃ p : Fin 8388608, j = ix1 p := ⟨j 0, eq_ix1 j⟩
    rw [Finset.mem_filter] at hj
    exact ⟨p, Finset.mem_filter.2 ⟨Finset.mem_univ _, (result1 idx p n).1 hj.2⟩, rfl⟩
  · intro p _; rfl

/-- The 2-d accumulating scatter (component axis a window axis) at atom `n`, component `k`: the 1-d scatter of column `k`. -/
theorem scatter3_apply (x : SN3.Idx → EReal) (idx : IVec SP1 32) (u : SP3.Idx → EReal) (n : Fin 262144) (k : Fin 3) :
    Ideal.hostScatterAdd d3 x idx u (ix2 n k) = x (ix2 n k) + segSum idx (fun p => u (ix2 p k)) n := by
  unfold Ideal.hostScatterAdd segSum
  refine congrArg (x (ix2 n k) + ·) ?_
  symm
  refine Finset.sum_bij (fun p _ => ix2 p k) ?_ ?_ ?_ ?_
  · intro p hp
    rw [Finset.mem_filter] at hp ⊢
    exact ⟨Finset.mem_univ _, (result3 idx p k n k).2 ⟨hp.2, rfl⟩⟩
  · intro p _ q _ e
    exact congrFun e 0
  · intro j hj
    obtain ⟨p, k', rfl⟩ : ∃ (p : Fin 8388608) (k' : Fin 3), j = ix2 p k' := ⟨j 0, j 1, eq_ix2 j⟩
    rw [Finset.mem_filter] at hj
    obtain ⟨e, rfl⟩ := (result3 idx p k' n k).1 hj.2
    exact ⟨p, Finset.mem_filter.2 ⟨Finset.mem_univ _, e⟩, rfl⟩
  · intro p _; rfl

/-- A finite sum of real numbers, read in the extended reals, is the sum of the coercions. -/
theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- When every value is a real number, the sum of the negated values is the negated sum. -/
theorem segSum_neg (idx : IVec SP1 32) (g : Fin 8388608 → EReal) (hg : ∀ p, ∃ r : ℝ, g p = (r : EReal)) (n : Fin 262144) :
    segSum idx (fun p => -g p) n = -segSum idx g n := by
  choose r hr using hg
  obtain rfl : g = fun p => (r p : EReal) := funext hr
  unfold segSum
  rw [← coe_sum, ← EReal.coe_neg, ← Finset.sum_neg_distrib, coe_sum]
  exact Finset.sum_congr rfl fun p _ => (EReal.coe_neg (r p)).symm

/-- The sum only sees the values. -/
theorem segSum_congr (idx : IVec SP1 32) (g g' : Fin 8388608 → EReal) (h : ∀ p, g p = g' p) (n : Fin 262144) :
    segSum idx g n = segSum idx g' n := by
  rw [show g = g' from funext h]

/-! ## The same sum over a flat index array, as the programs pass it (a column added by a broadcast) -/

/-- The sum of `g p` over the pairs `p` whose word in the flat index array `i`, read signed, is atom `n`. -/
def atomSum (i : IVec SP 32) (g : Fin 8388608 → EReal) (n : Fin 262144) : EReal :=
  ∑ p ∈ Finset.univ.filter (fun p : Fin 8388608 => (i (ix1 p)).toInt = (n.val : Int)), g p

/-- The programs hand the scatter the flat index array with a unit axis appended. -/
theorem segSum_bcast (i : IVec SP 32) (h : SP.BroadcastsInDim SP1 (![0] : Fin 1 → Fin SP1.rank)) (g : Fin 8388608 → EReal) (n : Fin 262144) :
    segSum (broadcastInDim SP1 ![0] h i) g n = atomSum i g n := by
  unfold segSum atomSum
  have e : ∀ p : Fin 8388608, broadcastInDim SP1 ![0] h i (ix2 p (0 : Fin 1)) = i (ix1 p) := fun p =>
    broadcastInDim_apply _ h i (ix2 p (0 : Fin 1)) (ix1 p) (fun a => match a with
      | ⟨0, _⟩ => by show p.val = if (8388608 : Nat) = 1 then 0 else p.val; rw [if_neg (by decide)])
  refine Finset.sum_congr (Finset.filter_congr fun p _ => ?_) fun _ _ => rfl
  rw [e p]

theorem atomSum_neg (i : IVec SP 32) (g : Fin 8388608 → EReal) (hg : ∀ p, ∃ r : ℝ, g p = (r : EReal)) (n : Fin 262144) :
    atomSum i (fun p => -g p) n = -atomSum i g n := by
  choose r hr using hg
  obtain rfl : g = fun p => (r p : EReal) := funext hr
  unfold atomSum
  rw [← coe_sum, ← EReal.coe_neg, ← Finset.sum_neg_distrib, coe_sum]
  exact Finset.sum_congr rfl fun p _ => (EReal.coe_neg (r p)).symm

theorem atomSum_congr (i : IVec SP 32) (g g' : Fin 8388608 → EReal) (h : ∀ p, g p = g' p) (n : Fin 262144) :
    atomSum i g n = atomSum i g' n := by
  rw [show g = g' from funext h]

end Cert.Scatter
end
-- ==== Proof.Spec.lean ====
/-
  The per-atom result both programs compute, named once.

  For pair `p` with displacement `d[p, ·]`: its half-energy and, for each component `k`, its force along `k`. The result
  array has, for atom `n`, in column 0 the sum of the half-energies of the pairs naming `n` in either index array, and in
  column `k + 1` the sum of the forces along `k` of the pairs naming `n` first, minus that of the pairs naming `n` second.
-/
import proofs.«162897_j89361089560859_2_alg».proof.Proof.PairMath
import proofs.«162897_j89361089560859_2_alg».proof.Proof.Scatter
import Idealize.ShloMosaic.Lib.ValueIdx

noncomputable section

namespace Cert.Spec

open Idealize.ShloMosaic Idealize.ShloMosaic.ValueIdx Cert.PairMath Cert.Scatter

/-- The pattern of `+0.0`, which every scatter starts from. -/
abbrev z : EReal := Ideal.ofBits .f32 0x00000000#32

/-- Half the energy of pair `p`. -/
def eSpec (d : SP3.Idx → EReal) (p : Fin 8388608) : EReal :=
  halfE (Ideal.div c1 (sq (d (ix2 p (0 : Fin 3))) (d (ix2 p (1 : Fin 3))) (d (ix2 p (2 : Fin 3)))))

/-- The force of pair `p` along component `k`. -/
def fSpec (d : SP3.Idx → EReal) (k : Fin 3) (p : Fin 8388608) : EReal :=
  force (d (ix2 p (0 : Fin 3))) (d (ix2 p (1 : Fin 3))) (d (ix2 p (2 : Fin 3))) (d (ix2 p k))

/-- For real displacements every force is real. -/
theorem fSpec_real (d : SP3.Idx → EReal) (hd : ∀ i, ∃ r : ℝ, d i = (r : EReal)) (k : Fin 3) (p : Fin 8388608) :
    ∃ r : ℝ, fSpec d k p = (r : EReal) := by
  obtain ⟨x, hx⟩ := hd (ix2 p (0 : Fin 3))
  obtain ⟨y, hy⟩ := hd (ix2 p (1 : Fin 3))
  obtain ⟨w, hw⟩ := hd (ix2 p (2 : Fin 3))
  obtain ⟨h0, h1, h2⟩ := force_real x y w
  have H0 : ∃ r : ℝ, fSpec d (0 : Fin 3) p = (r : EReal) := by unfold fSpec; rw [hx, hy, hw]; exact h0
  have H1 : ∃ r : ℝ, fSpec d (1 : Fin 3) p = (r : EReal) := by unfold fSpec; rw [hx, hy, hw]; exact h1
  have H2 : ∃ r : ℝ, fSpec d (2 : Fin 3) p = (r : EReal) := by unfold fSpec; rw [hx, hy, hw]; exact h2
  match k with
  | ⟨0, _⟩ => exact H0
  | ⟨1, _⟩ => exact H1
  | ⟨2, _⟩ => exact H2

end Cert.Spec

end
-- ==== Proof.TailDefs.lean ====
/-
  The 49 host lines after the region, as one function `tailK` of the region's result array and the two index arrays, and
  that function read at one index of the result.

  The lines slice the four rows of the region's result (half-energies and the three force components, per pair), scatter-add
  each row by the first and by the second atom-index array starting from zeros, add the two energy sums, subtract the two
  force sums, and join the four per-atom columns. Read at atom `n`: each scatter is zero plus the sum of the row over the
  pairs whose index word is `n` (`seg_apply`), and column `col` of the joined result is the `col`-th piece (`tailK_col`).
-/
import proofs.«162897_j89361089560859_2_alg».proof.Proof.FrameKI
import proofs.«162897_j89361089560859_2_alg».proof.Proof.Spec
import Idealize.ShloMosaic.Lib.Pipeline.Value
import Idealize.ShloMosaic.Lib.ValueIdx
import Idealize.ShloMosaic.Lib.ValueLayout

noncomputable section

namespace Cert.KernelIdeal.Tail

open Cert.KernelIdeal Cert.KernelIdeal.Gen Cert.KernelIdeal.Frm
open Idealize.ShloMosaic Idealize.ShloMosaic.TcCoe Idealize.SL.Sem Idealize.ShloMosaic.ValueIdx

/-! ## The lines after the region, as one function of the region's result and the two index arrays -/

def rowFlat0 (o : FVec Ideal S4x8388608 .f32) : FVec Ideal S8388608 .f32 :=
  shapeCast S8388608 (extractStridedSlice S1x8388608 ![0, 0] o slices_S4x8388608_S1x8388608_0_0) shapeCasts_S1x8388608_S8388608
def rowFlat1 (o : FVec Ideal S4x8388608 .f32) : FVec Ideal S8388608 .f32 :=
  shapeCast S8388608 (extractStridedSlice S1x8388608 ![1, 0] o slices_S4x8388608_S1x8388608_1_0) shapeCasts_S1x8388608_S8388608
def rowFlat2 (o : FVec Ideal S4x8388608 .f32) : FVec Ideal S8388608 .f32 :=
  shapeCast S8388608 (extractStridedSlice S1x8388608 ![2, 0] o slices_S4x8388608_S1x8388608_2_0) shapeCasts_S1x8388608_S8388608
def rowFlat3 (o : FVec Ideal S4x8388608 .f32) : FVec Ideal S8388608 .f32 :=
  shapeCast S8388608 (extractStridedSlice S1x8388608 ![3, 0] o slices_S4x8388608_S1x8388608_3_0) shapeCasts_S1x8388608_S8388608

/-- The per-atom zeros every scatter starts from. -/
def zeros : FVec Ideal S262144 .f32 := broadcastInDim S262144 ![] bcast_S_S262144 (constant (F := Ideal) S_ .f32 0x00000000#32)

/-- The per-atom sums of a per-pair vector `u` by the index array `i`. -/
def seg (i : IVec S8388608 32) (u : FVec Ideal S8388608 .f32) : FVec Ideal S262144 .f32 :=
  Host.scatterAdd (F := Ideal) scatter_S262144_S8388608x1_S8388608_n_0_0_1 zeros (broadcastInDim S8388608x1 ![0] bcast_S8388608_S8388608x1_0 i) u

/-- A per-atom vector as a one-column matrix. -/
def asCol (v : FVec Ideal S262144 .f32) : FVec Ideal S262144x1 .f32 := broadcastInDim S262144x1 ![0] bcast_S262144_S262144x1_0 v

/-- The program's result from the region's result `o` and the index arrays: energies summed over both index arrays, forces
    summed over the first and subtracted over the second, the four columns joined. -/
def tailK (o : FVec Ideal S4x8388608 .f32) (i1 i2 : IVec S8388608 32) : FVec Ideal S262144x4 .f32 :=
  concatenate S262144x4 1 [⟨S262144x1, asCol (addf (seg i1 (rowFlat0 o)) (seg i2 (rowFlat0 o)))⟩,
    ⟨S262144x1, asCol (subf (seg i1 (rowFlat1 o)) (seg i2 (rowFlat1 o)))⟩,
    ⟨S262144x1, asCol (subf (seg i1 (rowFlat2 o)) (seg i2 (rowFlat2 o)))⟩,
    ⟨S262144x1, asCol (subf (seg i1 (rowFlat3 o)) (seg i2 (rowFlat3 o)))⟩]
    concatenates_S262144x1_S262144x1_S262144x1_S262144x1_S262144x4_d1

theorem rowFlat0_apply (o : FVec Ideal S4x8388608 .f32) (p : Fin 8388608) : rowFlat0 o (ix1 p) = o (ix2 (0 : Fin 4) p) :=
  (shapeCast_1a_a_apply _ _ p).trans (extractStridedSlice_apply _ o _ (ix2 (0 : Fin 1) p) (ix2 (0 : Fin 4) p) fun a => match a with
    | ⟨0, _⟩ => rfl
    | ⟨1, _⟩ => by show p.val = 0 + p.val; omega)
theorem rowFlat1_apply (o : FVec Ideal S4x8388608 .f32) (p : Fin 8388608) : rowFlat1 o (ix1 p) = o (ix2 (1 : Fin 4) p) :=
  (shapeCast_1a_a_apply _ _ p).trans (extractStridedSlice_apply _ o _ (ix2 (0 : Fin 1) p) (ix2 (1 : Fin 4) p) fun a => match a with
    | ⟨0, _⟩ => rfl
    | ⟨1, _⟩ => by show p.val = 0 + p.val; omega)
theorem rowFlat2_apply (o : FVec Ideal S4x8388608 .f32) (p : Fin 8388608) : rowFlat2 o (ix1 p) = o (ix2 (2 : Fin 4) p) :=
  (shapeCast_1a_a_apply _ _ p).trans (extractStridedSlice_apply _ o _ (ix2 (0 : Fin 1) p) (ix2 (2 : Fin 4) p) fun a => match a with
    | ⟨0, _⟩ => rfl
    | ⟨1, _⟩ => by show p.val = 0 + p.val; omega)
theorem rowFlat3_apply (o : FVec Ideal S4x8388608 .f32) (p : Fin 8388608) : rowFlat3 o (ix1 p) = o (ix2 (3 : Fin 4) p) :=
  (shapeCast_1a_a_apply _ _ p).trans (extractStridedSlice_apply _ o _ (ix2 (0 : Fin 1) p) (ix2 (3 : Fin 4) p) fun a => match a with
    | ⟨0, _⟩ => rfl
    | ⟨1, _⟩ => by show p.val = 0 + p.val; omega)

theorem zeros_apply (n : Fin 262144) : zeros (ix1 n) = Cert.Spec.z :=
  broadcastInDim_apply _ bcast_S_S262144 (constant (F := Ideal) S_ .f32 0x00000000#32) (ix1 n) ix0 (fun a => a.elim0)

/-- At the extended reals the host's accumulating scatter is the exact sum, whatever its operands. -/
theorem scatterAdd_ideal {s si u : Shape} {φ : FTy} {w : Nat} (dn : ScatterDims s si u) (x : FVec Ideal s φ)
    (idx : IVec si w) (upd : FVec Ideal u φ) :
    Host.scatterAdd dn x idx upd = Ideal.hostScatterAdd dn x idx upd := rfl

/-- The program's scatter dimension numbers are the literal record. -/
theorem dK_eq : scatter_S262144_S8388608x1_S8388608_n_0_0_1 = Cert.Scatter.d1 := rfl

/-- The scatter at atom `n`: zero plus the sum over the pairs naming `n`. -/
theorem seg_apply (i : IVec S8388608 32) (u : FVec Ideal S8388608 .f32) (n : Fin 262144) :
    seg i u (ix1 n) = Cert.Spec.z + Cert.Scatter.atomSum i (fun p => u (ix1 p)) n := by
  unfold seg
  rw [scatterAdd_ideal, dK_eq, Cert.Scatter.scatter1_apply, Cert.Scatter.segSum_bcast, zeros_apply]

theorem asCol_apply (v : FVec Ideal S262144 .f32) (n : Fin 262144) : asCol v (ix2 n (0 : Fin 1)) = v (ix1 n) :=
  broadcastInDim_apply _ bcast_S262144_S262144x1_0 v (ix2 n (0 : Fin 1)) (ix1 n) (fun a => match a with
    | ⟨0, _⟩ => by show n.val = if (262144 : Nat) = 1 then 0 else n.val; rw [if_neg (by decide)])

/-- Column `col` of the result at atom `n` is the `col`-th joined piece at `(n, 0)`. -/
theorem tailK_col (o : FVec Ideal S4x8388608 .f32) (i1 i2 : IVec S8388608 32) (n : Fin 262144) (col : Fin 4)
    (x₁ : FVec Ideal S262144x1 .f32)
    (hx : ([⟨S262144x1, asCol (addf (seg i1 (rowFlat0 o)) (seg i2 (rowFlat0 o)))⟩,
      ⟨S262144x1, asCol (subf (seg i1 (rowFlat1 o)) (seg i2 (rowFlat1 o)))⟩,
      ⟨S262144x1, asCol (subf (seg i1 (rowFlat2 o)) (seg i2 (rowFlat2 o)))⟩,
      ⟨S262144x1, asCol (subf (seg i1 (rowFlat3 o)) (seg i2 (rowFlat3 o)))⟩] : List ((s : Shape) × (s.Idx → EReal)))[col.val]'(col.isLt) = ⟨S262144x1, x₁⟩)
    (hpre : (((([⟨S262144x1, asCol (addf (seg i1 (rowFlat0 o)) (seg i2 (rowFlat0 o)))⟩,
      ⟨S262144x1, asCol (subf (seg i1 (rowFlat1 o)) (seg i2 (rowFlat1 o)))⟩,
      ⟨S262144x1, asCol (subf (seg i1 (rowFlat2 o)) (seg i2 (rowFlat2 o)))⟩,
      ⟨S262144x1, asCol (subf (seg i1 (rowFlat3 o)) (seg i2 (rowFlat3 o)))⟩] : List ((s : Shape) × (s.Idx → EReal))).take col.val).map (·.1)).map fun s => if h : s.rank = S262144x4.rank then s.size ((1 : Fin 2).cast h.symm) else 0).sum = col.val) :
    tailK o i1 i2 (ix2 n col) = x₁ (ix2 n (0 : Fin 1)) := by
  unfold tailK
  refine concatenate_apply_piece (1 : Fin 2) _ _ (ix2 n col) col.val (by exact col.isLt) S262144x1 x₁ hx rfl col.val hpre (ix2 n (0 : Fin 1)) ?_ ?_
  · intro b hb
    match b with
    | ⟨0, _⟩ => rfl
    | ⟨1, _⟩ => exact absurd rfl hb
  · show col.val + 0 = col.val
    omega

end Cert.KernelIdeal.Tail
end
-- ==== Proof.TailRun.lean ====
/-
  The 49 host lines after the region compute `tailK` of the region's result array and the two index arrays: the first 48
  lines fill the four one-column buffers (each a composition of a row slice, two scatters and an addition or a subtraction),
  the last line joins them.
-/
import proofs.«162897_j89361089560859_2_alg».proof.Proof.TailDefs
import Idealize.ShloMosaic.Lib.StableHlo.Run

noncomputable section

namespace Cert.KernelIdeal.Tail

open Cert.KernelIdeal Cert.KernelIdeal.Gen Cert.KernelIdeal.Frm
open Idealize.ShloMosaic Idealize.ShloMosaic.TcCoe Idealize.SL.Sem Idealize.ShloMosaic.ValueIdx Idealize.ShloMosaic.StableHlo

/-- Running two stretches of host lines one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op ops ih => exact ih _

/-! The first 48 lines leave, in the four one-column buffers, the per-atom energy sums and the three per-atom force sums. -/

set_option maxHeartbeats 4000000 in
theorem col38 (W : Valuation τ sig (Elt Ideal)) :
    StableHlo.after (hostOps1 : List (HloOp τ sig (Elt Ideal))).dropLast W (Proc.devRef .tc main_v38)
      = asCol (addf (seg (W (Proc.devRef .tc main_arg1)) (rowFlat0 (W (Proc.devRef .tc main_v1)))) (seg (W (Proc.devRef .tc main_arg2)) (rowFlat0 (W (Proc.devRef .tc main_v1))))) := by
  simp only [hostOps1, List.dropLast_cons₂, List.dropLast_singleton]
  after_results_simp
  unfold asCol seg rowFlat0 zeros
  rfl

set_option maxHeartbeats 4000000 in
theorem col39 (W : Valuation τ sig (Elt Ideal)) :
    StableHlo.after (hostOps1 : List (HloOp τ sig (Elt Ideal))).dropLast W (Proc.devRef .tc main_v39)
      = asCol (subf (seg (W (Proc.devRef .tc main_arg1)) (rowFlat1 (W (Proc.devRef .tc main_v1)))) (seg (W (Proc.devRef .tc main_arg2)) (rowFlat1 (W (Proc.devRef .tc main_v1))))) := by
  simp only [hostOps1, List.dropLast_cons₂, List.dropLast_singleton]
  after_results_simp
  unfold asCol seg rowFlat1 zeros
  rfl

set_option maxHeartbeats 4000000 in
theorem col40 (W : Valuation τ sig (Elt Ideal)) :
    StableHlo.after (hostOps1 : List (HloOp τ sig (Elt Ideal))).dropLast W (Proc.devRef .tc main_v40)
      = asCol (subf (seg (W (Proc.devRef .tc main_arg1)) (rowFlat2 (W (Proc.devRef .tc main_v1)))) (seg (W (Proc.devRef .tc main_arg2)) (rowFlat2 (W (Proc.devRef .tc main_v1))))) := by
  simp only [hostOps1, List.dropLast_cons₂, List.dropLast_singleton]
  after_results_simp
  unfold asCol seg rowFlat2 zeros
  rfl

set_option maxHeartbeats 4000000 in
theorem col41 (W : Valuation τ sig (Elt Ideal)) :
    StableHlo.after (hostOps1 : List (HloOp τ sig (Elt Ideal))).dropLast W (Proc.devRef .tc main_v41)
      = asCol (subf (seg (W (Proc.devRef .tc main_arg1)) (rowFlat3 (W (Proc.devRef .tc main_v1)))) (seg (W (Proc.devRef .tc main_arg2)) (rowFlat3 (W (Proc.devRef .tc main_v1))))) := by
  simp only [hostOps1, List.dropLast_cons₂, List.dropLast_singleton]
  after_results_simp
  unfold asCol seg rowFlat3 zeros
  rfl

/-- The last line: the four columns joined. -/
abbrev lastOp : HloOp τ sig (Elt Ideal) :=
  StableHlo.nary ![main_v38, main_v39, main_v40, main_v41] main_v42 (fun u => concatenate S262144x4 1 [⟨S262144x1, u 0⟩, ⟨S262144x1, u 1⟩, ⟨S262144x1, u 2⟩, ⟨S262144x1, u 3⟩] concatenates_S262144x1_S262144x1_S262144x1_S262144x1_S262144x4_d1)

set_option maxHeartbeats 4000000 in
/-- The 49 lines after the region leave `tailK` of the region's result array and the two index arrays in the program's
    result buffer, whatever the other buffers hold. -/
theorem after_tail (W : Valuation τ sig (Elt Ideal)) :
    StableHlo.after hostOps1 W (Proc.devRef .tc main_v42)
      = tailK (W (Proc.devRef .tc main_v1)) (W (Proc.devRef .tc main_arg1)) (W (Proc.devRef .tc main_arg2)) := by
  have hne : (hostOps1 : List (HloOp τ sig (Elt Ideal))) ≠ [] := List.cons_ne_nil _ _
  have hsplit : (hostOps1 : List (HloOp τ sig (Elt Ideal))) = hostOps1.dropLast ++ [lastOp] :=
    (List.dropLast_append_getLast hne).symm
  have h1 : StableHlo.after hostOps1 W = StableHlo.after [lastOp] (StableHlo.after (hostOps1 : List (HloOp τ sig (Elt Ideal))).dropLast W) := by
    rw [← after_append]
    exact congrArg (fun l => StableHlo.after l W) hsplit
  rw [h1]
  simp only [StableHlo.after_cons, StableHlo.after_nil]
  rw [StableHlo.nary_result]
  show concatenate S262144x4 1 [⟨S262144x1, StableHlo.after (hostOps1 : List (HloOp τ sig (Elt Ideal))).dropLast W (Proc.devRef .tc main_v38)⟩,
    ⟨S262144x1, StableHlo.after (hostOps1 : List (HloOp τ sig (Elt Ideal))).dropLast W (Proc.devRef .tc main_v39)⟩,
    ⟨S262144x1, StableHlo.after (hostOps1 : List (HloOp τ sig (Elt Ideal))).dropLast W (Proc.devRef .tc main_v40)⟩,
    ⟨S262144x1, StableHlo.after (hostOps1 : List (HloOp τ sig (Elt Ideal))).dropLast W (Proc.devRef .tc main_v41)⟩]
    concatenates_S262144x1_S262144x1_S262144x1_S262144x1_S262144x4_d1 = _
  rw [col38, col39, col40, col41]
  rfl

end Cert.KernelIdeal.Tail
end
-- ==== Proof.RunVal.lean ====
/-
  The idealized kernel program's run, read: its result buffer ends at one function of its three argument arrays.

  The frame run leaves every buffer the pipeline does not stage at what the 49 lines after the region make of the region's
  result and the arguments. The region's result array is `Gout` of the displacements; the lines after the region compute
  `tailK` of it and of the two index arrays, which no line before or in the region changes.
-/
import proofs.«162897_j89361089560859_2_alg».proof.Proof.ValueKI
import proofs.«162897_j89361089560859_2_alg».proof.Proof.TailDefs
import proofs.«162897_j89361089560859_2_alg».proof.Proof.TailRun
import Idealize.ShloMosaic.Lib.StableHlo.Run

noncomputable section

namespace Cert.KernelIdeal.RunVal

open Cert.KernelIdeal Cert.KernelIdeal.Gen Cert.KernelIdeal.Frm Cert.KernelIdeal.Val Cert.KernelIdeal.Tail
open Idealize.ShloMosaic Idealize.ShloMosaic.TcCoe Idealize.SL.Sem Idealize.ShloMosaic.ValueIdx
open Idealize.ShloMosaic.Pipeline (Dat)

/-! ## The run, read -/

variable (m : (ℓ : Loc nD τ sig) → Buf (Elt Ideal) ℓ) (ρ : Dev nD → PrngReg)

/-- What the lines after the region leave in the program's result buffer: `tailK` of the region's result `Gout` of the
    displacements and of the two index arrays as launched. -/
theorem tail_value (c : Dev nD) :
    Pipeline.afterTail₀ cfgs (dats m) 0 (V0 m) [hostOps1] c main_v42
      = tailK (Gout (m ((c : Thread nD τ).loc main_arg0))) (m ((c : Thread nD τ).loc main_arg1)) (m ((c : Thread nD τ).loc main_arg2)) := by
  unfold Pipeline.afterTail₀
  show StableHlo.after hostOps1 _ (Proc.devRef .tc main_v42) = _
  rw [after_tail]
  have e1 : Pipeline.withArrays (cfgs 0).spec c (V0 m c) (fun w => (dats m 0 c).arrAt w (cfgs 0).N) (Proc.devRef .tc main_v1)
      = Gout (m ((c : Thread nD τ).loc main_arg0)) :=
    (Pipeline.withArrays_arr spec0 launch0.win.arr_inj c _ _ 1).trans (final_out m c)
  have e2 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have e3 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  rw [e1, e2, e3]

/-- Every weakly fair execution of the idealized kernel program terminates with its result buffer at `tailK (Gout d) i1 i2` of
    its arguments, and the arguments unchanged. -/
theorem run_value : θ_run defs (onTc (τ := τ) (main (F := Ideal))) ⟨m, fun _ => 0, ρ⟩ (fun r => ∀ c : Dev nD,
      r.2.mem ((c.tc : Thread nD τ).loc main_v42)
        = tailK (Gout (m ((c : Thread nD τ).loc main_arg0))) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v42 (Pipeline.mem_restRefs_of main_v42 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main (F := Ideal) m ρ)

end Cert.KernelIdeal.RunVal
end
-- ==== Proof.KerRes.lean ====
import proofs.«162897_j89361089560859_2_alg».proof.Proof.ValueKI
import proofs.«162897_j89361089560859_2_alg».proof.Proof.TailDefs
import proofs.«162897_j89361089560859_2_alg».proof.Proof.Spec
import Idealize.ShloMosaic.PureOps.Ideal.Laws

/-!
The kernel program's result, read at one index.

The region leaves, for every pair, its half-energy and its three force components (the force coefficient times the
component). The lines after the region sum each of these four rows over the pairs naming an atom, once by each index
array, starting from the zero pattern; they add the two energy sums, subtract the two sums of each force component, and join
the four per-atom columns. Read at atom `n`: column 0 is the sum of the two energy sums, and column `k + 1` is the
difference of the two sums of the forces along `k`. The kernel's half-energy and force coefficient are those of the
specification (multiplying by `1` changes nothing, and multiplying by the reciprocal is dividing, for every extended
real). A difference of sums is the sum of the first and of the negated terms of the second when every term is a real
number, which holds for real displacements.
-/

noncomputable section

namespace Cert.KernelIdeal.Res

open Idealize.ShloMosaic Idealize.ShloMosaic.ValueIdx Cert.PairMath Cert.Scatter Cert.Spec
open Cert.KernelIdeal Cert.KernelIdeal.Val Cert.KernelIdeal.Tail

/-! ## The per-pair values -/

/-- Row 0 of the region's result at pair `p` is the pair's half-energy. -/
private theorem row0_apply (d : S8388608x3.Idx → EReal) (p : Fin 8388608) :
    rowFlat0 (Gout d) (ix1 p) = eSpec d p := by
  rw [rowFlat0_apply, Gout_at d (ix2 (0 : Fin 4) p) 0 p rfl rfl]
  show kHalfE (d (ix2 p (0 : Fin 3))) (d (ix2 p (1 : Fin 3))) (d (ix2 p (2 : Fin 3))) = eSpec d p
  unfold kHalfE eSpec
  rw [halfE_one_mul]

/-- Row 1 of the region's result at pair `p` is the pair's force along component 0. -/
private theorem row1_apply (d : S8388608x3.Idx → EReal) (p : Fin 8388608) :
    rowFlat1 (Gout d) (ix1 p) = fSpec d (0 : Fin 3) p := by
  rw [rowFlat1_apply, Gout_at d (ix2 (1 : Fin 4) p) 1 p rfl rfl]
  show kCoeff (d (ix2 p (0 : Fin 3))) (d (ix2 p (1 : Fin 3))) (d (ix2 p (2 : Fin 3))) * d (ix2 p (0 : Fin 3)) = fSpec d (0 : Fin 3) p
  unfold kCoeff fSpec force
  rw [coeff_kernel_eq]

/-- Row 2 of the region's result at pair `p` is the pair's force along component 1. -/
private theorem row2_apply (d : S8388608x3.Idx → EReal) (p : Fin 8388608) :
    rowFlat2 (Gout d) (ix1 p) = fSpec d (1 : Fin 3) p := by
  rw [rowFlat2_apply, Gout_at d (ix2 (2 : Fin 4) p) 2 p rfl rfl]
  show kCoeff (d (ix2 p (0 : Fin 3))) (d (ix2 p (1 : Fin 3))) (d (ix2 p (2 : Fin 3))) * d (ix2 p (1 : Fin 3)) = fSpec d (1 : Fin 3) p
  unfold kCoeff fSpec force
  rw [coeff_kernel_eq]

/-- Row 3 of the region's result at pair `p` is the pair's force along component 2. -/
private theorem row3_apply (d : S8388608x3.Idx → EReal) (p : Fin 8388608) :
    rowFlat3 (Gout d) (ix1 p) = fSpec d (2 : Fin 3) p := by
  rw [rowFlat3_apply, Gout_at d (ix2 (3 : Fin 4) p) 3 p rfl rfl]
  show kCoeff (d (ix2 p (0 : Fin 3))) (d (ix2 p (1 : Fin 3))) (d (ix2 p (2 : Fin 3))) * d (ix2 p (2 : Fin 3)) = fSpec d (2 : Fin 3) p
  unfold kCoeff fSpec force
  rw [coeff_kernel_eq]

/-! ## The result -/

/-- Column 0 of the kernel program's result at atom n. -/
theorem ker_energy (d : S8388608x3.Idx → EReal) (i1 i2 : IVec S8388608 32) (n : Fin 262144) :
    tailK (Gout d) i1 i2 (ix2 n (0 : Fin 4)) = (z + atomSum i1 (eSpec d) n) + (z + atomSum i2 (eSpec d) n) := by
  rw [tailK_col (Gout d) i1 i2 n (0 : Fin 4)
      (asCol (addf (seg i1 (rowFlat0 (Gout d))) (seg i2 (rowFlat0 (Gout d))))) rfl rfl,
    asCol_apply, addf_apply, seg_apply, seg_apply,
    atomSum_congr i1 _ (eSpec d) (row0_apply d) n, atomSum_congr i2 _ (eSpec d) (row0_apply d) n]

/-- A force column: if column `col` of the result is the difference of the two per-atom sums of a row `u` whose element at
    pair `p` is the force along `k`, then, for real displacements, it is the sum by the first index array of the forces plus
    the sum by the second of their negations. The zero pattern is `0`; `A - B = A + -B`; and the negated sum of real numbers
    is the sum of their negations. -/
private theorem force_col (d : S8388608x3.Idx → EReal) (hd : ∀ i, ∃ r : ℝ, d i = (r : EReal)) (i1 i2 : IVec S8388608 32)
    (n : Fin 262144) (k : Fin 3) (col : Fin 4) (u : FVec Ideal S8388608 .f32) (hu : ∀ p, u (ix1 p) = fSpec d k p)
    (hcol : tailK (Gout d) i1 i2 (ix2 n col) = asCol (subf (seg i1 u) (seg i2 u)) (ix2 n (0 : Fin 1))) :
    tailK (Gout d) i1 i2 (ix2 n col)
      = (z + atomSum i1 (fSpec d k) n) + (z + atomSum i2 (fun p => -fSpec d k p) n) := by
  have hz : z = 0 := Ideal.ofBits_zero_f32
  rw [hcol, asCol_apply, subf_apply, seg_apply, seg_apply,
    atomSum_congr i1 _ (fSpec d k) hu n, atomSum_congr i2 _ (fSpec d k) hu n,
    atomSum_neg i2 (fSpec d k) (fSpec_real d hd k) n, hz]
  simp only [zero_add]
  rw [sub_eq_add_neg]

/-- Column k + 1 of the kernel program's result at atom n, for real displacements. -/
theorem ker_force (d : S8388608x3.Idx → EReal) (hd : ∀ i, ∃ r : ℝ, d i = (r : EReal)) (i1 i2 : IVec S8388608 32) (n : Fin 262144) (k : Fin 3) :
    tailK (Gout d) i1 i2 (ix2 n (⟨k.val + 1, by omega⟩ : Fin 4)) = (z + atomSum i1 (fSpec d k) n) + (z + atomSum i2 (fun p => -fSpec d k p) n) := by
  match k with
  | ⟨0, _⟩ =>
    exact force_col d hd i1 i2 n _ _ (rowFlat1 (Gout d)) (row1_apply d)
      (tailK_col (Gout d) i1 i2 n (1 : Fin 4) _ rfl rfl)
  | ⟨1, _⟩ =>
    exact force_col d hd i1 i2 n _ _ (rowFlat2 (Gout d)) (row2_apply d)
      (tailK_col (Gout d) i1 i2 n (2 : Fin 4) _ rfl rfl)
  | ⟨2, _⟩ =>
    exact force_col d hd i1 i2 n _ _ (rowFlat3 (Gout d)) (row3_apply d)
      (tailK_col (Gout d) i1 i2 n (3 : Fin 4) _ rfl rfl)

end Cert.KernelIdeal.Res

end
-- ==== Proof.RefVal.lean ====
import proofs.«162897_j89361089560859_2_alg».proof.Proof.Gen.ReferenceIdeal.Read
import proofs.«162897_j89361089560859_2_alg».proof.Proof.Spec
import Idealize.ShloMosaic.Lib.Pipeline.Value
import Idealize.ShloMosaic.Lib.ValueIdx
import Idealize.ShloMosaic.Lib.ValueLayout

/-!
The reference program's result, read at one index.

The result array has one row per atom and four columns. Column 0 of row `n` is the sum of two accumulating scatters of
the pairs' half-energies, one by each index array; column `k + 1` is the sum of the scatter of the pairs' forces along
`k` by the first index array and the scatter of their negations by the second. Each scatter starts from the zero pattern.
Below, each stage of the program is read at an index: the squared length of a displacement, the half-energy and the force
of a pair, the four scatters at an atom, and last the concatenation of the energy column with the three force columns.
-/

noncomputable section

namespace Cert.RefVal

open Idealize.ShloMosaic Idealize.ShloMosaic.ValueIdx Cert.PairMath Cert.Scatter Cert.Spec
open Cert.ReferenceIdeal Cert.ReferenceIdeal.Gen Cert.ReferenceIdeal.Read

/-! ## Index bookkeeping -/

/-- Row `p`, column `k` of the displacement array, as the row reduction names it. -/
private theorem idx_v1_eq (p : Fin 8388608) (k : Fin 3) : idx_main_v1 (ix1 p) k = ix2 p k := by
  funext a
  match a with
  | ⟨0, _⟩ => rfl
  | ⟨1, _⟩ => rfl

/-- The pair of an element `(p, k)`, through the two broadcasts that spread a per-pair value over the components. -/
private theorem idx_v29_v30_eq (p : Fin 8388608) (k : Fin 3) : idx_main_v29 (idx_main_v30 (ix2 p k)) = ix1 p := by
  funext a
  match a with
  | ⟨0, _⟩ => rfl

/-- The atom of the element `(n, 0)` of the energy column. -/
private theorem idx_v40_eq (n : Fin 262144) : idx_main_v40 (ix2 n (0 : Fin 1)) = ix1 n := by
  funext a
  match a with
  | ⟨0, _⟩ => rfl

/-! ## The per-pair values -/

/-- The squared length of displacement `p`: the row sum `0 + ∑ k, d[p,k] * d[p,k]`. -/
private theorem sqlen_apply (d : (⟨S8388608x3, .f32⟩ : BufTy).Contents (Elt Ideal)) (p : Fin 8388608) :
    val_main_v1 (F := Ideal) d (ix1 p) = sq (d (ix2 p (0 : Fin 3))) (d (ix2 p (1 : Fin 3))) (d (ix2 p (2 : Fin 3))) := by
  rw [val_main_v1_apply, val_main_cst_apply]
  simp only [idx_v1_eq, val_main_v0_apply]
  exact sum3_eq (fun k => d (ix2 p k))

/-- The half-energy of pair `p`, as the first energy scatter's update. -/
private theorem e13_apply (d : (⟨S8388608x3, .f32⟩ : BufTy).Contents (Elt Ideal)) (p : Fin 8388608) :
    val_main_v13 (F := Ideal) d (ix1 p) = eSpec d p := by
  rw [val_main_v13_apply, val_main_v12_apply, val_main_cst_3_apply, val_main_v11_apply, val_main_v10_apply,
    val_main_cst_2_apply, val_main_v9_apply, val_main_v8_apply, val_main_cst_1_apply, val_main_v7_apply,
    val_main_v6_apply, val_main_v5_apply, val_main_v4_apply, val_main_v3_apply, val_main_v2_apply,
    val_main_cst_0_apply, sqlen_apply]
  rfl

/-- The half-energy of pair `p`, as the second energy scatter's update (another copy of the same product). -/
private theorem e18_apply (d : (⟨S8388608x3, .f32⟩ : BufTy).Contents (Elt Ideal)) (p : Fin 8388608) :
    val_main_v18 (F := Ideal) d (ix1 p) = eSpec d p := by
  rw [val_main_v18_apply, val_main_v17_apply, val_main_cst_5_apply, val_main_v11_apply, val_main_v10_apply,
    val_main_cst_2_apply, val_main_v9_apply, val_main_v8_apply, val_main_cst_1_apply, val_main_v7_apply,
    val_main_v6_apply, val_main_v5_apply, val_main_v4_apply, val_main_v3_apply, val_main_v2_apply,
    val_main_cst_0_apply, sqlen_apply]
  rfl

/-- The force of pair `p` along component `k`. -/
private theorem f31_apply (d : (⟨S8388608x3, .f32⟩ : BufTy).Contents (Elt Ideal)) (p : Fin 8388608) (k : Fin 3) :
    val_main_v31 (F := Ideal) d (ix2 p k) = fSpec d k p := by
  rw [val_main_v31_apply, val_main_v30_apply, val_main_v29_apply, idx_v29_v30_eq, val_main_v28_apply,
    val_main_v27_apply, val_main_v26_apply, val_main_cst_8_apply, val_main_v25_apply, val_main_v24_apply,
    val_main_v23_apply, val_main_cst_7_apply, val_main_v6_apply, val_main_v5_apply, val_main_v4_apply,
    val_main_v3_apply, val_main_v2_apply, val_main_cst_0_apply, sqlen_apply]
  rfl

/-- The negated force of pair `p` along component `k`. -/
private theorem f35_apply (d : (⟨S8388608x3, .f32⟩ : BufTy).Contents (Elt Ideal)) (p : Fin 8388608) (k : Fin 3) :
    val_main_v35 (F := Ideal) d (ix2 p k) = -fSpec d k p := by
  rw [val_main_v35_apply, f31_apply]
  rfl

/-! ## The scatters at an atom -/

/-- A 1-d accumulating scatter from the zero pattern, by a flat index array with a unit axis appended, at atom `n`. -/
private theorem scatter1_read (x : SN.Idx → EReal) (i : IVec SP 32)
    (h : SP.BroadcastsInDim SP1 (![0] : Fin 1 → Fin SP1.rank)) (u : SP.Idx → EReal) (g : Fin 8388608 → EReal)
    (n : Fin 262144) (hx : x (ix1 n) = z) (hu : ∀ p, u (ix1 p) = g p) :
    Ideal.hostScatterAdd d1 x (broadcastInDim SP1 ![0] h i) u (ix1 n) = z + atomSum i g n := by
  rw [scatter1_apply, segSum_bcast, hx]
  exact congrArg (z + ·) (atomSum_congr i _ _ hu n)

/-- A 2-d accumulating scatter from the zero pattern, by the same index array, at atom `n` and component `k`. -/
private theorem scatter3_read (x : SN3.Idx → EReal) (i : IVec SP 32)
    (h : SP.BroadcastsInDim SP1 (![0] : Fin 1 → Fin SP1.rank)) (u : SP3.Idx → EReal) (g : Fin 8388608 → EReal)
    (n : Fin 262144) (k : Fin 3) (hx : x (ix2 n k) = z) (hu : ∀ p, u (ix2 p k) = g p) :
    Ideal.hostScatterAdd d3 x (broadcastInDim SP1 ![0] h i) u (ix2 n k) = z + atomSum i g n := by
  rw [scatter3_apply, segSum_bcast, hx]
  exact congrArg (z + ·) (atomSum_congr i _ _ hu n)

/-- At the extended reals the host's accumulating scatter is the exact sum, whatever its operands. -/
private theorem scatterAdd_ideal {s si u : Shape} {φ : FTy} {w : Nat} (dn : ScatterDims s si u) (x : FVec Ideal s φ)
    (idx : IVec si w) (upd : FVec Ideal u φ) :
    Host.scatterAdd dn x idx upd = Ideal.hostScatterAdd dn x idx upd := rfl

/-- The program's 1-d scatter dimension numbers are the literal record. -/
private theorem d1_eq : scatter_S262144_S8388608x1_S8388608_n_0_0_1 = d1 := rfl

/-- The program's 2-d scatter dimension numbers are the literal record. -/
private theorem d3_eq : scatter_S262144x3_S8388608x1_S8388608x3_1_0_0_1 = d3 := rfl

/-- The half-energies summed over the pairs naming atom `n` first. -/
private theorem v16_apply (d : (⟨S8388608x3, .f32⟩ : BufTy).Contents (Elt Ideal))
    (i1 : (⟨S8388608, .i32⟩ : BufTy).Contents (Elt Ideal)) (n : Fin 262144) :
    val_main_v16 (F := Ideal) d i1 (ix1 n) = z + atomSum i1 (eSpec d) n := by
  unfold val_main_v16
  rw [scatterAdd_ideal, d1_eq]
  unfold val_main_v15
  exact scatter1_read _ i1 _ _ (eSpec d) n ((val_main_v14_apply _).trans (val_main_cst_4_apply _)) (e13_apply d)

/-- The half-energies summed over the pairs naming atom `n` second. -/
private theorem v21_apply (d : (⟨S8388608x3, .f32⟩ : BufTy).Contents (Elt Ideal))
    (i2 : (⟨S8388608, .i32⟩ : BufTy).Contents (Elt Ideal)) (n : Fin 262144) :
    val_main_v21 (F := Ideal) d i2 (ix1 n) = z + atomSum i2 (eSpec d) n := by
  unfold val_main_v21
  rw [scatterAdd_ideal, d1_eq]
  unfold val_main_v20
  exact scatter1_read _ i2 _ _ (eSpec d) n ((val_main_v19_apply _).trans (val_main_cst_6_apply _)) (e18_apply d)

/-- The forces along `k` summed over the pairs naming atom `n` first. -/
private theorem v34_apply (d : (⟨S8388608x3, .f32⟩ : BufTy).Contents (Elt Ideal))
    (i1 : (⟨S8388608, .i32⟩ : BufTy).Contents (Elt Ideal)) (n : Fin 262144) (k : Fin 3) :
    val_main_v34 (F := Ideal) d i1 (ix2 n k) = z + atomSum i1 (fSpec d k) n := by
  unfold val_main_v34
  rw [scatterAdd_ideal, d3_eq]
  unfold val_main_v33
  exact scatter3_read _ i1 _ _ (fSpec d k) n k ((val_main_v32_apply _).trans (val_main_cst_9_apply _))
    (fun p => f31_apply d p k)

/-- The negated forces along `k` summed over the pairs naming atom `n` second. -/
private theorem v38_apply (d : (⟨S8388608x3, .f32⟩ : BufTy).Contents (Elt Ideal))
    (i2 : (⟨S8388608, .i32⟩ : BufTy).Contents (Elt Ideal)) (n : Fin 262144) (k : Fin 3) :
    val_main_v38 (F := Ideal) d i2 (ix2 n k) = z + atomSum i2 (fun p => -fSpec d k p) n := by
  unfold val_main_v38
  rw [scatterAdd_ideal, d3_eq]
  unfold val_main_v37
  exact scatter3_read _ i2 _ _ (fun p => -fSpec d k p) n k ((val_main_v36_apply _).trans (val_main_cst_10_apply _))
    (fun p => f35_apply d p k)

/-! ## The result -/

/-- Column 0 of the reference's result at atom n. -/
theorem ref_energy (d : (⟨S8388608x3, .f32⟩ : BufTy).Contents (Elt Ideal)) (i1 i2 : (⟨S8388608, .i32⟩ : BufTy).Contents (Elt Ideal)) (n : Fin 262144) :
    val_main_v41 (F := Ideal) d i1 i2 (ix2 n (0 : Fin 4)) = (z + atomSum i1 (eSpec d) n) + (z + atomSum i2 (eSpec d) n) := by
  have hc : val_main_v41 (F := Ideal) d i1 i2 (ix2 n (0 : Fin 4))
      = val_main_v40 (F := Ideal) d i1 i2 (ix2 n (0 : Fin 1)) := by
    unfold val_main_v41
    exact concatenate_pair_apply_left _ _ _ concatenates_S262144x1_S262144x3_S262144x4_d1 (ix2 n (0 : Fin 4)) rfl
      (ix2 n (0 : Fin 1)) (fun b => match b with
        | ⟨0, _⟩ => rfl
        | ⟨1, _⟩ => rfl)
  rw [hc, val_main_v40_apply, idx_v40_eq, val_main_v22_apply, v16_apply, v21_apply]
  rfl

/-- Column k + 1 of the reference's result at atom n. -/
theorem ref_force (d : (⟨S8388608x3, .f32⟩ : BufTy).Contents (Elt Ideal)) (i1 i2 : (⟨S8388608, .i32⟩ : BufTy).Contents (Elt Ideal)) (n : Fin 262144) (k : Fin 3) :
    val_main_v41 (F := Ideal) d i1 i2 (ix2 n (⟨k.val + 1, by omega⟩ : Fin 4)) = (z + atomSum i1 (fSpec d k) n) + (z + atomSum i2 (fun p => -fSpec d k p) n) := by
  have hc : val_main_v41 (F := Ideal) d i1 i2 (ix2 n (⟨k.val + 1, by omega⟩ : Fin 4))
      = val_main_v39 (F := Ideal) d i1 i2 (ix2 n k) := by
    unfold val_main_v41
    exact concatenate_pair_apply_right _ _ _ concatenates_S262144x1_S262144x3_S262144x4_d1
      (ix2 n (⟨k.val + 1, by omega⟩ : Fin 4)) rfl rfl (ix2 n k)
      (fun b hb => match b, hb with
        | ⟨0, _⟩, _ => rfl
        | ⟨1, _⟩, hb => absurd rfl hb)
      rfl
  rw [hc, val_main_v39_apply, v34_apply, v38_apply]
  rfl

end Cert.RefVal

end
-- ==== Proof.FiniteIn.lean ====
import proofs.«162897_j89361089560859_2_alg».proof.Pre_finite_inputs
import Idealize.ShloMosaic.PureOps.Ideal
import Idealize.ShloMosaic.Lib.ReduceAll
import Idealize.ShloMosaic.Lib.ValueIdx

noncomputable section

namespace Cert.FiniteIn

open Idealize.ShloMosaic

/-- The pattern `0x7F800000` (exponent all ones, fraction zero, sign clear) denotes `+∞`. -/
private theorem inf_eq_top : Ideal.ofBits .f32 0x7F800000#32 = ⊤ := by
  simp [Ideal.ofBits, Ideal.ieee]

/-- An extended real whose absolute value `max a (-a)` is below `+∞` is a real number:
    it is neither `+∞` (whose absolute value is `+∞`) nor `-∞` (whose negation is `+∞`). -/
private theorem real_of_abs_lt_top (a : EReal) (h : max a (-a) < ⊤) : ∃ r : ℝ, a = (r : EReal) := by
  induction a using EReal.rec with
  | bot => simp at h
  | coe r => exact ⟨r, rfl⟩
  | top => simp at h

/-- If the conjunction over all elements of `|x| < +∞` holds then every element is a real number. -/
theorem real_of_pre [Cert.Pre_finite_inputs.Facts] (a0 : FVec Ideal Cert.Pre_finite_inputs.S8388608x3 .f32) (a1 a2 : IVec Cert.Pre_finite_inputs.S8388608 32)
    (h : Cert.Pre_finite_inputs.fn (F := Ideal) a0 a1 a2 = fun _ => 1#1) (i : Cert.Pre_finite_inputs.S8388608x3.Idx) : ∃ r : ℝ, a0 i = (r : EReal) := by
  -- the scalar shape has exactly one index
  haveI : Subsingleton Cert.Pre_finite_inputs.S_.Idx := ⟨fun a b => funext fun d => d.elim0⟩
  have h0 := congrFun h ValueIdx.ix0
  unfold Cert.Pre_finite_inputs.fn at h0
  have hi := Host.reduce_andi_all _ _ _ _ _ h0 i
  have hc : Ideal.cmp .olt (max (a0 i) (-(a0 i))) (Ideal.ofBits .f32 0x7F800000#32) = 1#1 := hi
  rw [inf_eq_top] at hc
  apply real_of_abs_lt_top
  by_contra hn
  simp [Ideal.cmp, hn] at hc

end Cert.FiniteIn

end
-- ==== Proof.lean ====
/-
  The certificate: a pairwise-potential kernel (per pair: half its energy and its force, scattered onto the two atoms of the
  pair) against its array-level reference, at the extended reals.

  The kernel program transposes the pair displacements, runs one pipelined region that computes, for every pair, half the
  pair energy and the three force components, and then sums them per atom with eight 1-d accumulating scatters (energies
  added over both index arrays, forces added over the first and subtracted over the second). The reference computes the same
  per-pair values with array operations, sums the energies the same way, and sums the forces with two 2-d accumulating
  scatters, the second one of the NEGATED forces.

  The three frames: both kernel programs by the frame run of their region (Proof/FrameK.lean, Proof/FrameKI.lean), the
  reference by its run. The idealization rewrote nothing. The value claim: per pair the two programs' half-energies agree as
  extended reals outright, and so do their forces — the kernel multiplies the force numerator by the reciprocal `1/b` of
  the squared length where the reference divides by `b`, which agree also at `b = 0`, where both are `⊥` (Proof/PairMath.lean).
  Per atom, an accumulating scatter is the sum over the pairs naming the atom, for the 1-d layout and, column by column, the
  2-d one (Proof/Scatter.lean). The one place the precondition is used: the reference's sum of negated forces is the negated
  sum only because every force is a real number, which holds when every displacement component is real (Proof/FiniteIn.lean).
-/
import proofs.«162897_j89361089560859_2_alg».proof.Defs
import proofs.«162897_j89361089560859_2_alg».proof.Proof.Gen.Kernel
import proofs.«162897_j89361089560859_2_alg».proof.Proof.Gen.KernelIdeal
import proofs.«162897_j89361089560859_2_alg».proof.Proof.Gen.ReferenceIdeal
import proofs.«162897_j89361089560859_2_alg».proof.Proof.Gen.Pre_finite_inputs
import proofs.«162897_j89361089560859_2_alg».proof.Proof.Gen.ReferenceIdeal.Run
import proofs.«162897_j89361089560859_2_alg».proof.Proof.Gen.ReferenceIdeal.Read
import proofs.«162897_j89361089560859_2_alg».proof.Proof.FrameK
import proofs.«162897_j89361089560859_2_alg».proof.Proof.FrameKI
import proofs.«162897_j89361089560859_2_alg».proof.Proof.RunVal
import proofs.«162897_j89361089560859_2_alg».proof.Proof.KerRes
import proofs.«162897_j89361089560859_2_alg».proof.Proof.RefVal
import proofs.«162897_j89361089560859_2_alg».proof.Proof.FiniteIn

noncomputable section

namespace Cert.Proof

open Idealize.ShloMosaic Idealize.ShloMosaic.TcCoe Idealize.SL.Sem Idealize.ShloMosaic.ValueIdx
open Cert.KernelIdeal.Val Cert.KernelIdeal.Tail

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- For real displacements the two programs' results are one function of the arguments: atom by atom, column by column,
    both are the same sums over the pairs naming the atom. -/
theorem result_eq (d : Cert.KernelIdeal.S8388608x3.Idx → EReal) (hd : ∀ i, ∃ r : ℝ, d i = (r : EReal))
    (i1 i2 : IVec Cert.KernelIdeal.S8388608 32) :
    tailK (Gout d) i1 i2 = Cert.ReferenceIdeal.Read.val_main_v41 (F := Ideal) d i1 i2 := by
  funext i
  obtain ⟨n, col, rfl⟩ : ∃ (n : Fin 262144) (col : Fin 4), i = ix2 n col := ⟨i 0, i 1, eq_ix2 i⟩
  match col with
  | ⟨0, _⟩ => exact (Cert.KernelIdeal.Res.ker_energy d i1 i2 n).trans (Cert.RefVal.ref_energy d i1 i2 n).symm
  | ⟨1, _⟩ => exact (Cert.KernelIdeal.Res.ker_force d hd i1 i2 n 0).trans (Cert.RefVal.ref_force d i1 i2 n 0).symm
  | ⟨2, _⟩ => exact (Cert.KernelIdeal.Res.ker_force d hd i1 i2 n 1).trans (Cert.RefVal.ref_force d i1 i2 n 1).symm
  | ⟨3, _⟩ => exact (Cert.KernelIdeal.Res.ker_force d hd i1 i2 n 2).trans (Cert.RefVal.ref_force d i1 i2 n 2).symm

theorem algebraic : Cert.algebraic_KernelIdeal_ReferenceIdeal := by
  intro m ρ m' ρ' hpre hagree
  refine ⟨fun c => tailK (Gout (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunVal.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2]
  exact (result_eq _ (fun i => Cert.FiniteIn.real_of_pre _ _ _ (hpre c) i) _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
